-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S10000x128 : Shape := ⟨2, ![10000, 128]⟩
abbrev S3x2x128x128 : Shape := ⟨4, ![3, 2, 128, 128]⟩
abbrev S3x128x128 : Shape := ⟨3, ![3, 128, 128]⟩
abbrev S3x128 : Shape := ⟨2, ![3, 128]⟩
abbrev S1600000 : Shape := ⟨1, ![1600000]⟩
abbrev S200000 : Shape := ⟨1, ![200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S3x2x128x128 : S_.BroadcastsInDim S3x2x128x128 (![] : Fin 0 → Fin S3x2x128x128.rank)
  reducesTo_S3x2x128x128_S_d0_1_2_3 : S3x2x128x128.ReducesTo [0, 1, 2, 3] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg4 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S100000x128 .f32) (main_arg1 : FVec F S10000x128 .f32) (main_arg2 : FVec F S3x2x128x128 .f32) (main_arg3 : FVec F S3x128x128 .f32) (main_arg4 : FVec F S3x128 .f32) (main_arg5 : IVec S1600000 32) (main_arg6 : IVec S1600000 32) (main_arg7 : IVec S200000 32) (main_arg8 : IVec S200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S3x2x128x128 .f32 := Host.absf main_arg2
  let main_cst_2 : FVec F S_ .f32 := constant S_ .f32 0x7F800000#32
  let main_v10 : FVec F S3x2x128x128 .f32 := broadcastInDim S3x2x128x128 ![] bcast_S_S3x2x128x128 main_cst_2
  let main_v11 : IVec S3x2x128x128 1 := cmpf .olt main_v9 main_v10
  let main_c_3 : IVec S_ 1 := constantI S_ 1 1#1
  let main_v12 : IVec S_ 1 := (fun x v => Host.reduce IntOp.andi x v reducesTo_S3x2x128x128_S_d0_1_2_3 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg4 main_v13 main_v16
-- ==== Kernel.lean ====
abbrev S100000x128 : Shape := ⟨2, ![100000, 128]⟩
abbrev S10000x128 : Shape := ⟨2, ![10000, 128]⟩
abbrev S3x2x128x128 : Shape := ⟨4, ![3, 2, 128, 128]⟩
abbrev S3x128x128 : Shape := ⟨3, ![3, 128, 128]⟩
abbrev S3x128 : Shape := ⟨2, ![3, 128]⟩
abbrev S1600000 : Shape := ⟨1, ![1600000]⟩
abbrev S200000 : Shape := ⟨1, ![200000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S200000x1 : Shape := ⟨2, ![200000, 1]⟩
abbrev S1600000x128 : Shape := ⟨2, ![1600000, 128]⟩
abbrev S200000x128 : Shape := ⟨2, ![200000, 128]⟩
abbrev S1x1x128x128 : Shape := ⟨4, ![1, 1, 128, 128]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩
abbrev S4000x128 : Shape := ⟨2, ![4000, 128]⟩
abbrev S4000x1 : Shape := ⟨2, ![4000, 1]⟩

abbrev nBuf : Space → Nat
  | .hbm => 140
  | .vmem => 48
  | .smem => 0
  | _ => 0

abbrev hbmTy0_0 (i : Nat) : BufTy := match i % 128 with
  | 0 => ⟨S100000x128, .f32⟩
  | 1 => ⟨S10000x128, .f32⟩
  | 2 => ⟨S3x2x128x128, .f32⟩
  | 3 => ⟨S3x128x128, .f32⟩
  | 4 => ⟨S3x128, .f32⟩
  | 5 => ⟨S1600000, .i32⟩
  | 6 => ⟨S1600000, .i32⟩
  | 7 => ⟨S200000, .i32⟩
  | 8 => ⟨S200000, .i32⟩
  | 9 => ⟨S_, .f32⟩
  | 10 => ⟨S1600000, .f32⟩
  | 11 => ⟨S_, .f32⟩
  | 12 => ⟨S200000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S100000x1, .f32⟩
  | 21 => ⟨S_, .f32⟩
  | 22 => ⟨S100000, .f32⟩
  | 23 => ⟨S200000x1, .i32⟩
  | 24 => ⟨S100000, .f32⟩
  | 25 => ⟨S_, .f32⟩
  | 26 => ⟨S100000, .f32⟩
  | 27 => ⟨S100000, .f32⟩
  | 28 => ⟨S100000x1, .f32⟩
  | 29 => ⟨S_, .f32⟩
  | 30 => ⟨S100000x1, .f32⟩
  | 31 => ⟨S100000x1, .f32⟩
  | 32 => ⟨S_, .f32⟩
  | 33 => ⟨S100000x1, .f32⟩
  | 34 => ⟨S100000x1, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x128, .f32⟩
  | 44 => ⟨S_, .f32⟩
  | 45 => ⟨S100000x128, .f32⟩
  | 46 => ⟨S1600000x1, .i32⟩
  | 47 => ⟨S100000x128, .f32⟩
  | 48 => ⟨S_, .i32⟩
  | 49 => ⟨S200000, .i32⟩
  | 50 => ⟨S200000, .i1⟩
  | 51 => ⟨S_, .i32⟩
  | 52 => ⟨S200000, .i32⟩
  | 53 => ⟨S200000, .i32⟩
  | 54 => ⟨S200000, .i32⟩
  | 55 => ⟨S200000x1, .i32⟩
  | 56 => ⟨S200000x128, .f32⟩
  | 57 => ⟨S_, .f32⟩
  | 58 => ⟨S100000x128, .f32⟩
  | 59 => ⟨S200000x1, .i32⟩
  | 60 => ⟨S100000x128, .f32⟩
  | 61 => ⟨S1x1x128x128, .f32⟩
  | 62 => ⟨S128x128, .f32⟩
  | 63 => ⟨S1x1x128x128, .f32⟩
  | 64 => ⟨S128x128, .f32⟩
  | 65 => ⟨S1x128x128, .f32⟩
  | 66 => ⟨S128x128, .f32⟩
  | 67 => ⟨S1x128, .f32⟩
  | 68 => ⟨S128, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S_, .i32⟩
  | 84 => ⟨S200000, .i32⟩
  | 85 => ⟨S200000, .i1⟩
  | 86 => ⟨S_, .i32⟩
  | 87 => ⟨S200000, .i32⟩
  | 88 => ⟨S200000, .i32⟩
  | 89 => ⟨S200000, .i32⟩
  | 90 => ⟨S200000x1, .i32⟩
  | 91 => ⟨S200000x128, .f32⟩
  | 92 => ⟨S_, .f32⟩
  | 93 => ⟨S100000x128, .f32⟩
  | 94 => ⟨S200000x1, .i32⟩
  | 95 => ⟨S100000x128, .f32⟩
  | 96 => ⟨S1x1x128x128, .f32⟩
  | 97 => ⟨S128x128, .f32⟩
  | 98 => ⟨S1x1x128x128, .f32⟩
  | 99 => ⟨S128x128, .f32⟩
  | 100 => ⟨S1x128x128, .f32⟩
  | 101 => ⟨S128x128, .f32⟩
  | 102 => ⟨S1x128, .f32⟩
  | 103 => ⟨S128, .f32⟩
  | 104 => ⟨S100000x128, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x128, .f32⟩
  | 114 => ⟨S_, .f32⟩
  | 115 => ⟨S100000x128, .f32⟩
  | 116 => ⟨S1600000x1, .i32⟩
  | 117 => ⟨S100000x128, .f32⟩
  | 118 => ⟨S_, .i32⟩
  | 119 => ⟨S200000, .i32⟩
  | 120 => ⟨S200000, .i1⟩
  | 121 => ⟨S_, .i32⟩
  | 122 => ⟨S200000, .i32⟩
  | 123 => ⟨S200000, .i32⟩
  | 124 => ⟨S200000, .i32⟩
  | 125 => ⟨S200000x1, .i32⟩
  | 126 => ⟨S200000x128, .f32⟩
  | 127 => ⟨S_, .f32⟩
  | _ => ⟨S100000x128, .f32⟩

abbrev hbmTy0_1 (i : Nat) : BufTy := match i % 128 with
  | 0 => ⟨S100000x128, .f32⟩
  | 1 => ⟨S200000x1, .i32⟩
  | 2 => ⟨S100000x128, .f32⟩
  | 3 => ⟨S1x1x128x128, .f32⟩
  | 4 => ⟨S128x128, .f32⟩
  | 5 => ⟨S1x1x128x128, .f32⟩
  | 6 => ⟨S128x128, .f32⟩
  | 7 => ⟨S1x128x128, .f32⟩
  | 8 => ⟨S128x128, .f32⟩
  | 9 => ⟨S1x128, .f32⟩
  | 10 => ⟨S128, .f32⟩
  | 11 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x1, .f32⟩
  | .local _ .vmem, ⟨7, _⟩ => ⟨S4000x1, .f32⟩
  | .local _ .vmem, ⟨8, _⟩ => ⟨S4000x1, .f32⟩
  | .local _ .vmem, ⟨9, _⟩ => ⟨S4000x1, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x1, .f32⟩
  | .local _ .vmem, ⟨23, _⟩ => ⟨S4000x1, .f32⟩
  | .local _ .vmem, ⟨24, _⟩ => ⟨S4000x1, .f32⟩
  | .local _ .vmem, ⟨25, _⟩ => ⟨S4000x1, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S4000x1, .f32⟩
  | .local _ .vmem, ⟨39, _⟩ => ⟨S4000x1, .f32⟩
  | .local _ .vmem, ⟨40, _⟩ => ⟨S4000x1, .f32⟩
  | .local _ .vmem, ⟨41, _⟩ => ⟨S4000x1, .f32⟩
  | .local _ .vmem, ⟨42, _⟩ => ⟨S128x128, .f32⟩
  | .local _ .vmem, ⟨43, _⟩ => ⟨S128x128, .f32⟩
  | .local _ .vmem, ⟨44, _⟩ => ⟨S128x128, .f32⟩
  | .local _ .vmem, ⟨45, _⟩ => ⟨S128, .f32⟩
  | .local _ .vmem, ⟨46, _⟩ => ⟨S4000x128, .f32⟩
  | .local _ .vmem, ⟨47, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_cst_1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_cst_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_3 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_cst_4 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_cst_5 : Ref sig .tc := ⟨.hbm, 29, rfl⟩
abbrev main_call0_v14 : Ref sig .tc := ⟨.hbm, 30, rfl⟩
abbrev main_call0_v15 : Ref sig .tc := ⟨.hbm, 31, rfl⟩
abbrev main_call0_cst_6 : Ref sig .tc := ⟨.hbm, 32, rfl⟩
abbrev main_call0_v16 : Ref sig .tc := ⟨.hbm, 33, rfl⟩
abbrev main_call0_v17 : Ref sig .tc := ⟨.hbm, 34, rfl⟩
abbrev main_call0_c : Ref sig .tc := ⟨.hbm, 35, rfl⟩
abbrev main_call0_v18 : Ref sig .tc := ⟨.hbm, 36, rfl⟩
abbrev main_call0_v19 : Ref sig .tc := ⟨.hbm, 37, rfl⟩
abbrev main_call0_c_7 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_v23 : Ref sig .tc := ⟨.hbm, 42, rfl⟩
abbrev main_call0_v24 : Ref sig .tc := ⟨.hbm, 43, rfl⟩
abbrev main_call0_cst_8 : Ref sig .tc := ⟨.hbm, 44, rfl⟩
abbrev main_call0_v25 : Ref sig .tc := ⟨.hbm, 45, rfl⟩
abbrev main_call0_v26 : Ref sig .tc := ⟨.hbm, 46, rfl⟩
abbrev main_call0_v27 : Ref sig .tc := ⟨.hbm, 47, rfl⟩
abbrev main_call0_c_9 : Ref sig .tc := ⟨.hbm, 48, rfl⟩
abbrev main_call0_v28 : Ref sig .tc := ⟨.hbm, 49, rfl⟩
abbrev main_call0_v29 : Ref sig .tc := ⟨.hbm, 50, rfl⟩
abbrev main_call0_c_10 : Ref sig .tc := ⟨.hbm, 51, rfl⟩
abbrev main_call0_v30 : Ref sig .tc := ⟨.hbm, 52, rfl⟩
abbrev main_call0_v31 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_cst_11 : Ref sig .tc := ⟨.hbm, 57, rfl⟩
abbrev main_call0_v35 : Ref sig .tc := ⟨.hbm, 58, rfl⟩
abbrev main_call0_v36 : Ref sig .tc := ⟨.hbm, 59, rfl⟩
abbrev main_call0_v37 : Ref sig .tc := ⟨.hbm, 60, rfl⟩
abbrev main_call0_v38 : Ref sig .tc := ⟨.hbm, 61, rfl⟩
abbrev main_call0_v39 : Ref sig .tc := ⟨.hbm, 62, rfl⟩
abbrev main_call0_v40 : Ref sig .tc := ⟨.hbm, 63, rfl⟩
abbrev main_call0_v41 : Ref sig .tc := ⟨.hbm, 64, rfl⟩
abbrev main_call0_v42 : Ref sig .tc := ⟨.hbm, 65, rfl⟩
abbrev main_call0_v43 : Ref sig .tc := ⟨.hbm, 66, rfl⟩
abbrev main_call0_v44 : Ref sig .tc := ⟨.hbm, 67, rfl⟩
abbrev main_call0_v45 : Ref sig .tc := ⟨.hbm, 68, rfl⟩
abbrev main_call0_v46 : Ref sig .tc := ⟨.hbm, 69, rfl⟩
abbrev main_call0_c_12 : Ref sig .tc := ⟨.hbm, 70, rfl⟩
abbrev main_call0_v47 : Ref sig .tc := ⟨.hbm, 71, rfl⟩
abbrev main_call0_v48 : Ref sig .tc := ⟨.hbm, 72, rfl⟩
abbrev main_call0_c_13 : Ref sig .tc := ⟨.hbm, 73, rfl⟩
abbrev main_call0_v49 : Ref sig .tc := ⟨.hbm, 74, rfl⟩
abbrev main_call0_v50 : Ref sig .tc := ⟨.hbm, 75, rfl⟩
abbrev main_call0_v51 : Ref sig .tc := ⟨.hbm, 76, rfl⟩
abbrev main_call0_v52 : Ref sig .tc := ⟨.hbm, 77, rfl⟩
abbrev main_call0_v53 : Ref sig .tc := ⟨.hbm, 78, rfl⟩
abbrev main_call0_cst_14 : Ref sig .tc := ⟨.hbm, 79, rfl⟩
abbrev main_call0_v54 : Ref sig .tc := ⟨.hbm, 80, rfl⟩
abbrev main_call0_v55 : Ref sig .tc := ⟨.hbm, 81, rfl⟩
abbrev main_call0_v56 : Ref sig .tc := ⟨.hbm, 82, rfl⟩
abbrev main_call0_c_15 : Ref sig .tc := ⟨.hbm, 83, rfl⟩
abbrev main_call0_v57 : Ref sig .tc := ⟨.hbm, 84, rfl⟩
abbrev main_call0_v58 : Ref sig .tc := ⟨.hbm, 85, rfl⟩
abbrev main_call0_c_16 : Ref sig .tc := ⟨.hbm, 86, rfl⟩
abbrev main_call0_v59 : Ref sig .tc := ⟨.hbm, 87, rfl⟩
abbrev main_call0_v60 : Ref sig .tc := ⟨.hbm, 88, rfl⟩
abbrev main_call0_v61 : Ref sig .tc := ⟨.hbm, 89, rfl⟩
abbrev main_call0_v62 : Ref sig .tc := ⟨.hbm, 90, rfl⟩
abbrev main_call0_v63 : Ref sig .tc := ⟨.hbm, 91, rfl⟩
abbrev main_call0_cst_17 : Ref sig .tc := ⟨.hbm, 92, rfl⟩
abbrev main_call0_v64 : Ref sig .tc := ⟨.hbm, 93, rfl⟩
abbrev main_call0_v65 : Ref sig .tc := ⟨.hbm, 94, rfl⟩
abbrev main_call0_v66 : Ref sig .tc := ⟨.hbm, 95, rfl⟩
abbrev main_call0_v67 : Ref sig .tc := ⟨.hbm, 96, rfl⟩
abbrev main_call0_v68 : Ref sig .tc := ⟨.hbm, 97, rfl⟩
abbrev main_call0_v69 : Ref sig .tc := ⟨.hbm, 98, rfl⟩
abbrev main_call0_v70 : Ref sig .tc := ⟨.hbm, 99, rfl⟩
abbrev main_call0_v71 : Ref sig .tc := ⟨.hbm, 100, rfl⟩
abbrev main_call0_v72 : Ref sig .tc := ⟨.hbm, 101, rfl⟩
abbrev main_call0_v73 : Ref sig .tc := ⟨.hbm, 102, rfl⟩
abbrev main_call0_v74 : Ref sig .tc := ⟨.hbm, 103, rfl⟩
abbrev main_call0_v75 : Ref sig .tc := ⟨.hbm, 104, rfl⟩
abbrev main_call0_c_18 : Ref sig .tc := ⟨.hbm, 105, rfl⟩
abbrev main_call0_v76 : Ref sig .tc := ⟨.hbm, 106, rfl⟩
abbrev main_call0_v77 : Ref sig .tc := ⟨.hbm, 107, rfl⟩
abbrev main_call0_c_19 : Ref sig .tc := ⟨.hbm, 108, rfl⟩
abbrev main_call0_v78 : Ref sig .tc := ⟨.hbm, 109, rfl⟩
abbrev main_call0_v79 : Ref sig .tc := ⟨.hbm, 110, rfl⟩
abbrev main_call0_v80 : Ref sig .tc := ⟨.hbm, 111, rfl⟩
abbrev main_call0_v81 : Ref sig .tc := ⟨.hbm, 112, rfl⟩
abbrev main_call0_v82 : Ref sig .tc := ⟨.hbm, 113, rfl⟩
abbrev main_call0_cst_20 : Ref sig .tc := ⟨.hbm, 114, rfl⟩
abbrev main_call0_v83 : Ref sig .tc := ⟨.hbm, 115, rfl⟩
abbrev main_call0_v84 : Ref sig .tc := ⟨.hbm, 116, rfl⟩
abbrev main_call0_v85 : Ref sig .tc := ⟨.hbm, 117, rfl⟩
abbrev main_call0_c_21 : Ref sig .tc := ⟨.hbm, 118, rfl⟩
abbrev main_call0_v86 : Ref sig .tc := ⟨.hbm, 119, rfl⟩
abbrev main_call0_v87 : Ref sig .tc := ⟨.hbm, 120, rfl⟩
abbrev main_call0_c_22 : Ref sig .tc := ⟨.hbm, 121, rfl⟩
abbrev main_call0_v88 : Ref sig .tc := ⟨.hbm, 122, rfl⟩
abbrev main_call0_v89 : Ref sig .tc := ⟨.hbm, 123, rfl⟩
abbrev main_call0_v90 : Ref sig .tc := ⟨.hbm, 124, rfl⟩
abbrev main_call0_v91 : Ref sig .tc := ⟨.hbm, 125, rfl⟩
abbrev main_call0_v92 : Ref sig .tc := ⟨.hbm, 126, rfl⟩
abbrev main_call0_cst_23 : Ref sig .tc := ⟨.hbm, 127, rfl⟩
abbrev main_call0_v93 : Ref sig .tc := ⟨.hbm, 128, rfl⟩
abbrev main_call0_v94 : Ref sig .tc := ⟨.hbm, 129, rfl⟩
abbrev main_call0_v95 : Ref sig .tc := ⟨.hbm, 130, rfl⟩
abbrev main_call0_v96 : Ref sig .tc := ⟨.hbm, 131, rfl⟩
abbrev main_call0_v97 : Ref sig .tc := ⟨.hbm, 132, rfl⟩
abbrev main_call0_v98 : Ref sig .tc := ⟨.hbm, 133, rfl⟩
abbrev main_call0_v99 : Ref sig .tc := ⟨.hbm, 134, rfl⟩
abbrev main_call0_v100 : Ref sig .tc := ⟨.hbm, 135, rfl⟩
abbrev main_call0_v101 : Ref sig .tc := ⟨.hbm, 136, rfl⟩
abbrev main_call0_v102 : Ref sig .tc := ⟨.hbm, 137, rfl⟩
abbrev main_call0_v103 : Ref sig .tc := ⟨.hbm, 138, rfl⟩
abbrev main_v0 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg9_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg6_0 : Ref sig .tc := ⟨.vmem, 43, rfl⟩
abbrev cc2_stg7_0 : Ref sig .tc := ⟨.vmem, 44, rfl⟩
abbrev cc2_stg8_0 : Ref sig .tc := ⟨.vmem, 45, rfl⟩
abbrev cc2_stg9_0 : Ref sig .tc := ⟨.vmem, 46, rfl⟩
abbrev cc2_stg9_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem9_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem6_0 : DmaSem sig := 43
abbrev cc2_sem7_0 : DmaSem sig := 44
abbrev cc2_sem8_0 : DmaSem sig := 45
abbrev cc2_sem9_0 : DmaSem sig := 46
abbrev cc2_sem9_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  bcast_S_S1600000 : S_.BroadcastsInDim S1600000 (![] : Fin 0 → Fin S1600000.rank)
  bcast_S_S200000 : S_.BroadcastsInDim S200000 (![] : Fin 0 → Fin S200000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S200000_S200000x1_0 : S200000.BroadcastsInDim S200000x1 (![0] : Fin 1 → Fin S200000x1.rank)
  bcast_S_S100000x1 : S_.BroadcastsInDim S100000x1 (![] : Fin 0 → Fin S100000x1.rank)
  bcast_S_S100000x128 : S_.BroadcastsInDim S100000x128 (![] : Fin 0 → Fin S100000x128.rank)
  slices_S3x2x128x128_S1x1x128x128_0_0_0_0 : S3x2x128x128.Slices ![0, 0, 0, 0] S1x1x128x128
  shapeCasts_S1x1x128x128_S128x128 : S1x1x128x128.ShapeCasts S128x128
  slices_S3x2x128x128_S1x1x128x128_0_1_0_0 : S3x2x128x128.Slices ![0, 1, 0, 0] S1x1x128x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x2x128x128_S1x1x128x128_1_0_0_0 : S3x2x128x128.Slices ![1, 0, 0, 0] S1x1x128x128
  slices_S3x2x128x128_S1x1x128x128_1_1_0_0 : S3x2x128x128.Slices ![1, 1, 0, 0] S1x1x128x128
  slices_S3x128x128_S1x128x128_1_0_0 : S3x128x128.Slices ![1, 0, 0] S1x128x128
  slices_S3x128_S1x128_1_0 : S3x128.Slices ![1, 0] S1x128
  slices_S3x2x128x128_S1x1x128x128_2_0_0_0 : S3x2x128x128.Slices ![2, 0, 0, 0] S1x1x128x128
  slices_S3x2x128x128_S1x1x128x128_2_1_0_0 : S3x2x128x128.Slices ![2, 1, 0, 0] S1x1x128x128
  slices_S3x128x128_S1x128x128_2_0_0 : S3x128x128.Slices ![2, 0, 0] S1x128x128
  slices_S3x128_S1x128_2_0 : S3x128.Slices ![2, 0] S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S4000x128 : S1x128.Broadcasts S4000x128
  scatter_S100000_S1600000x1_S1600000_n_0_0_1_wf : ScatterDims.WF S100000 S1600000x1 S1600000 [] [0] [0] 1
  scatter_S100000_S200000x1_S200000_n_0_0_1_wf : ScatterDims.WF S100000 S200000x1 S200000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S10000x128_S200000x1_S200000x128_1_0_n_n_0_1_1128_wf : GatherDims.WF S10000x128 S200000x1 S200000x128 [1] [0] [] [0] [] 1 ![1, 128]
  scatter_S100000x128_S200000x1_S200000x128_1_0_0_1_wf : ScatterDims.WF S100000x128 S200000x1 S200000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S100000x1.size a
  hwx0_4 : ∀ i : grid0.Coords, EltTy.bits .f32 = 32 ∨ (Rect.block (s := S100000x1) S4000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .f32 = 32 ∨ (Rect.block (s := S100000x1) S4000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .f32 = 32 ∨ (Rect.block (s := S100000x1) S4000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S100000x128.size a
  hwx1_9 : ∀ i : grid1.Coords, EltTy.bits .f32 = 32 ∨ (Rect.block (s := S100000x128) S4000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S100000x1.size a
  hwx2_3 : ∀ i : grid2.Coords, EltTy.bits .f32 = 32 ∨ (Rect.block (s := S100000x1) S4000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x1.size a ≤ S100000x1.size a
  hwx2_4 : ∀ i : grid2.Coords, EltTy.bits .f32 = 32 ∨ (Rect.block (s := S100000x1) S4000x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x128.size a ≤ S100000x128.size a
  hwx2_9 : ∀ i : grid2.Coords, EltTy.bits .f32 = 32 ∨ (Rect.block (s := S100000x128) S4000x128.size (cc2_transform_9 i) (hinb2_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_call0_v27) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v37) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v15) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v17) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v39) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v41) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v43) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v45) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v46) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_call0_v56) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v66) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v46) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v15) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v17) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v68) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v70) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v72) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call0_v74) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_call0_v75) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_call0_v85) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v95) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v75) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v15) S4000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_call0_v17) S4000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_call0_v97) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v99) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v101) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_call0_v103) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v0) S4000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S10000x128 : Shape := ⟨2, ![10000, 128]⟩
abbrev S3x2x128x128 : Shape := ⟨4, ![3, 2, 128, 128]⟩
abbrev S3x128x128 : Shape := ⟨3, ![3, 128, 128]⟩
abbrev S3x128 : Shape := ⟨2, ![3, 128]⟩
abbrev S1600000 : Shape := ⟨1, ![1600000]⟩
abbrev S200000 : Shape := ⟨1, ![200000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S200000x1 : Shape := ⟨2, ![200000, 1]⟩
abbrev S1600000x128 : Shape := ⟨2, ![1600000, 128]⟩
abbrev S200000x128 : Shape := ⟨2, ![200000, 128]⟩
abbrev S1x1x128x128 : Shape := ⟨4, ![1, 1, 128, 128]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩

abbrev nBuf : Space → Nat
  | .hbm => 176
  | .vmem => 0
  | .smem => 0
  | _ => 0

abbrev hbmTy0_0 (i : Nat) : BufTy := match i % 128 with
  | 0 => ⟨S100000x128, .f32⟩
  | 1 => ⟨S10000x128, .f32⟩
  | 2 => ⟨S3x2x128x128, .f32⟩
  | 3 => ⟨S3x128x128, .f32⟩
  | 4 => ⟨S3x128, .f32⟩
  | 5 => ⟨S1600000, .i32⟩
  | 6 => ⟨S1600000, .i32⟩
  | 7 => ⟨S200000, .i32⟩
  | 8 => ⟨S200000, .i32⟩
  | 9 => ⟨S_, .f32⟩
  | 10 => ⟨S1600000, .f32⟩
  | 11 => ⟨S_, .f32⟩
  | 12 => ⟨S200000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S100000x1, .f32⟩
  | 21 => ⟨S_, .f32⟩
  | 22 => ⟨S100000, .f32⟩
  | 23 => ⟨S200000x1, .i32⟩
  | 24 => ⟨S100000, .f32⟩
  | 25 => ⟨S_, .f32⟩
  | 26 => ⟨S100000, .f32⟩
  | 27 => ⟨S100000, .f32⟩
  | 28 => ⟨S100000x1, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S100000x128, .f32⟩
  | 43 => ⟨S100000x128, .f32⟩
  | 44 => ⟨S_, .i32⟩
  | 45 => ⟨S200000, .i32⟩
  | 46 => ⟨S200000, .i1⟩
  | 47 => ⟨S_, .i32⟩
  | 48 => ⟨S200000, .i32⟩
  | 49 => ⟨S200000, .i32⟩
  | 50 => ⟨S200000, .i32⟩
  | 51 => ⟨S200000x1, .i32⟩
  | 52 => ⟨S200000x128, .f32⟩
  | 53 => ⟨S_, .f32⟩
  | 54 => ⟨S100000x128, .f32⟩
  | 55 => ⟨S200000x1, .i32⟩
  | 56 => ⟨S100000x128, .f32⟩
  | 57 => ⟨S100000x128, .f32⟩
  | 58 => ⟨S100000x128, .f32⟩
  | 59 => ⟨S1x1x128x128, .f32⟩
  | 60 => ⟨S128x128, .f32⟩
  | 61 => ⟨S100000x128, .f32⟩
  | 62 => ⟨S1x1x128x128, .f32⟩
  | 63 => ⟨S128x128, .f32⟩
  | 64 => ⟨S100000x128, .f32⟩
  | 65 => ⟨S100000x128, .f32⟩
  | 66 => ⟨S1x128x128, .f32⟩
  | 67 => ⟨S128x128, .f32⟩
  | 68 => ⟨S100000x128, .f32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x128, .f32⟩
  | 87 => ⟨S_, .f32⟩
  | 88 => ⟨S100000x128, .f32⟩
  | 89 => ⟨S1600000x1, .i32⟩
  | 90 => ⟨S100000x128, .f32⟩
  | 91 => ⟨S100000x128, .f32⟩
  | 92 => ⟨S100000x128, .f32⟩
  | 93 => ⟨S_, .i32⟩
  | 94 => ⟨S200000, .i32⟩
  | 95 => ⟨S200000, .i1⟩
  | 96 => ⟨S_, .i32⟩
  | 97 => ⟨S200000, .i32⟩
  | 98 => ⟨S200000, .i32⟩
  | 99 => ⟨S200000, .i32⟩
  | 100 => ⟨S200000x1, .i32⟩
  | 101 => ⟨S200000x128, .f32⟩
  | 102 => ⟨S_, .f32⟩
  | 103 => ⟨S100000x128, .f32⟩
  | 104 => ⟨S200000x1, .i32⟩
  | 105 => ⟨S100000x128, .f32⟩
  | 106 => ⟨S100000x128, .f32⟩
  | 107 => ⟨S100000x128, .f32⟩
  | 108 => ⟨S1x1x128x128, .f32⟩
  | 109 => ⟨S128x128, .f32⟩
  | 110 => ⟨S100000x128, .f32⟩
  | 111 => ⟨S1x1x128x128, .f32⟩
  | 112 => ⟨S128x128, .f32⟩
  | 113 => ⟨S100000x128, .f32⟩
  | 114 => ⟨S100000x128, .f32⟩
  | 115 => ⟨S1x128x128, .f32⟩
  | 116 => ⟨S128x128, .f32⟩
  | 117 => ⟨S100000x128, .f32⟩
  | 118 => ⟨S100000x128, .f32⟩
  | 119 => ⟨S1x128, .f32⟩
  | 120 => ⟨S128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S_, .i32⟩
  | _ => ⟨S100000x128, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x128, .f32⟩
  | 8 => ⟨S_, .f32⟩
  | 9 => ⟨S100000x128, .f32⟩
  | 10 => ⟨S1600000x1, .i32⟩
  | 11 => ⟨S100000x128, .f32⟩
  | 12 => ⟨S100000x128, .f32⟩
  | 13 => ⟨S100000x128, .f32⟩
  | 14 => ⟨S_, .i32⟩
  | 15 => ⟨S200000, .i32⟩
  | 16 => ⟨S200000, .i1⟩
  | 17 => ⟨S_, .i32⟩
  | 18 => ⟨S200000, .i32⟩
  | 19 => ⟨S200000, .i32⟩
  | 20 => ⟨S200000, .i32⟩
  | 21 => ⟨S200000x1, .i32⟩
  | 22 => ⟨S200000x128, .f32⟩
  | 23 => ⟨S_, .f32⟩
  | 24 => ⟨S100000x128, .f32⟩
  | 25 => ⟨S200000x1, .i32⟩
  | 26 => ⟨S100000x128, .f32⟩
  | 27 => ⟨S100000x128, .f32⟩
  | 28 => ⟨S100000x128, .f32⟩
  | 29 => ⟨S1x1x128x128, .f32⟩
  | 30 => ⟨S128x128, .f32⟩
  | 31 => ⟨S100000x128, .f32⟩
  | 32 => ⟨S1x1x128x128, .f32⟩
  | 33 => ⟨S128x128, .f32⟩
  | 34 => ⟨S100000x128, .f32⟩
  | 35 => ⟨S100000x128, .f32⟩
  | 36 => ⟨S1x128x128, .f32⟩
  | 37 => ⟨S128x128, .f32⟩
  | 38 => ⟨S100000x128, .f32⟩
  | 39 => ⟨S100000x128, .f32⟩
  | 40 => ⟨S1x128, .f32⟩
  | 41 => ⟨S128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_call0_cst : Ref sig .tc := ⟨.hbm, 75, rfl⟩
abbrev main_call0_v0 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_call1_cst : Ref sig .tc := ⟨.hbm, 124, rfl⟩
abbrev main_call1_v0 : Ref sig .tc := ⟨.hbm, 125, rfl⟩
abbrev main_v95 : Ref sig .tc := ⟨.hbm, 126, rfl⟩
abbrev main_c_16 : Ref sig .tc := ⟨.hbm, 127, rfl⟩
abbrev main_v96 : Ref sig .tc := ⟨.hbm, 128, rfl⟩
abbrev main_v97 : Ref sig .tc := ⟨.hbm, 129, rfl⟩
abbrev main_c_17 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_18 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_19 : Ref sig .tc := ⟨.hbm, 142, rfl⟩
abbrev main_v108 : Ref sig .tc := ⟨.hbm, 143, rfl⟩
abbrev main_v109 : Ref sig .tc := ⟨.hbm, 144, rfl⟩
abbrev main_c_20 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_21 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_call2_cst : Ref sig .tc := ⟨.hbm, 173, rfl⟩
abbrev main_call2_v0 : Ref sig .tc := ⟨.hbm, 174, rfl⟩
abbrev main_v136 : Ref sig .tc := ⟨.hbm, 175, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S200000 : S_.BroadcastsInDim S200000 (![] : Fin 0 → Fin S200000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S200000_S200000x1_0 : S200000.BroadcastsInDim S200000x1 (![0] : Fin 1 → Fin S200000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x2x128x128_S1x1x128x128_0_0_0_0 : S3x2x128x128.Slices ![0, 0, 0, 0] S1x1x128x128
  shapeCasts_S1x1x128x128_S128x128 : S1x1x128x128.ShapeCasts S128x128
  slices_S3x2x128x128_S1x1x128x128_0_1_0_0 : S3x2x128x128.Slices ![0, 1, 0, 0] S1x1x128x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x2x128x128_S1x1x128x128_1_0_0_0 : S3x2x128x128.Slices ![1, 0, 0, 0] S1x1x128x128
  slices_S3x2x128x128_S1x1x128x128_1_1_0_0 : S3x2x128x128.Slices ![1, 1, 0, 0] S1x1x128x128
  slices_S3x128x128_S1x128x128_1_0_0 : S3x128x128.Slices ![1, 0, 0] S1x128x128
  slices_S3x128_S1x128_1_0 : S3x128.Slices ![1, 0] S1x128
  slices_S3x2x128x128_S1x1x128x128_2_0_0_0 : S3x2x128x128.Slices ![2, 0, 0, 0] S1x1x128x128
  slices_S3x2x128x128_S1x1x128x128_2_1_0_0 : S3x2x128x128.Slices ![2, 1, 0, 0] S1x1x128x128
  slices_S3x128x128_S1x128x128_2_0_0 : S3x128x128.Slices ![2, 0, 0] S1x128x128
  slices_S3x128_S1x128_2_0 : S3x128.Slices ![2, 0] S1x128
  scatter_S100000_S1600000x1_S1600000_n_0_0_1_wf : ScatterDims.WF S100000 S1600000x1 S1600000 [] [0] [0] 1
  scatter_S100000_S200000x1_S200000_n_0_0_1_wf : ScatterDims.WF S100000 S200000x1 S200000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S10000x128_S200000x1_S200000x128_1_0_n_n_0_1_1128_wf : GatherDims.WF S10000x128 S200000x1 S200000x128 [1] [0] [] [0] [] 1 ![1, 128]
  scatter_S100000x128_S200000x1_S200000x128_1_0_0_1_wf : ScatterDims.WF S100000x128 S200000x1 S200000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LayerSpec.lean ====
/-
  One graph-convolution layer as a function on the extended reals, entry by entry.

  For a node r and a feature q the layer's output is
      max( Σ_k (A[r,k] · s[r]) · W0[k,q]  +  Σ_k (B[r,k] · t[r]) · W1[k,q]  +  Σ_k H[r,k] · Wl[k,q]  +  b[q] , 0 ),
  where A and B are the two aggregated neighbour sums, s and t the two columns of reciprocal in-degrees, H the
  node's own features, W0, W1, Wl the three weight matrices and b the bias. The same expression reads one block of
  rows (n = 4000) and the whole array (n = 100000): a block is the restriction of the arrays to its rows.

  The reciprocal in-degree is 1 / d with d = max(count, 1); since d is never zero, x · (1 / d) = x / d on every
  extended real, infinite ones included.
-/
import Idealize.ShloMosaic.PureOps.Ideal
import Idealize.ShloMosaic.Lib.ValueIdx

noncomputable section

namespace Cert.Layer

open Idealize.ShloMosaic Idealize.ShloMosaic.ValueIdx

/-- The layer's output at node `r`, feature `q`. -/
def entry {n : ℕ} (A B H : (⟨2, ![n, 128]⟩ : Shape).Idx → EReal) (I1 I2 : (⟨2, ![n, 1]⟩ : Shape).Idx → EReal)
    (W0 W1 Wl : (⟨2, ![128, 128]⟩ : Shape).Idx → EReal) (b : (⟨1, ![128]⟩ : Shape).Idx → EReal)
    (r : Fin n) (q : Fin 128) : EReal :=
  max ((((∑ k : Fin 128, (A (ix2 r k) * I1 (ix2 r (0 : Fin 1))) * W0 (ix2 k q))
      + ∑ k : Fin 128, (B (ix2 r k) * I2 (ix2 r (0 : Fin 1))) * W1 (ix2 k q))
      + ∑ k : Fin 128, H (ix2 r k) * Wl (ix2 k q)) + b (ix1 q)) 0

/-- The layer over all 100000 nodes. -/
def layer (A B H : (⟨2, ![100000, 128]⟩ : Shape).Idx → EReal) (I1 I2 : (⟨2, ![100000, 1]⟩ : Shape).Idx → EReal)
    (W0 W1 Wl : (⟨2, ![128, 128]⟩ : Shape).Idx → EReal) (b : (⟨1, ![128]⟩ : Shape).Idx → EReal) :
    (⟨2, ![100000, 128]⟩ : Shape).Idx → EReal :=
  fun i => entry A B H I1 I2 W0 W1 Wl b (i 0) (i 1)

theorem layer_ix2 (A B H : (⟨2, ![100000, 128]⟩ : Shape).Idx → EReal) (I1 I2 : (⟨2, ![100000, 1]⟩ : Shape).Idx → EReal)
    (W0 W1 Wl : (⟨2, ![128, 128]⟩ : Shape).Idx → EReal) (b : (⟨1, ![128]⟩ : Shape).Idx → EReal)
    (r : Fin 100000) (q : Fin 128) :
    layer A B H I1 I2 W0 W1 Wl b (ix2 r q) = entry A B H I1 I2 W0 W1 Wl b r q := rfl

/-- A block of 4000 rows: the layer of the loaded blocks, at a row p of the block, is the layer of the arrays at
    the array's row r that p stands for, when each row block agrees with its array along that row and the
    weight and bias blocks are the whole matrices and vector. -/
theorem entry_block (A B H : (⟨2, ![100000, 128]⟩ : Shape).Idx → EReal) (I1 I2 : (⟨2, ![100000, 1]⟩ : Shape).Idx → EReal)
    (W0 W1 Wl : (⟨2, ![128, 128]⟩ : Shape).Idx → EReal) (b : (⟨1, ![128]⟩ : Shape).Idx → EReal)
    (x0 x1 x2 : (⟨2, ![4000, 128]⟩ : Shape).Idx → EReal) (x3 x4 : (⟨2, ![4000, 1]⟩ : Shape).Idx → EReal)
    (x5 x6 x7 : (⟨2, ![128, 128]⟩ : Shape).Idx → EReal) (x8 : (⟨1, ![128]⟩ : Shape).Idx → EReal)
    (p : Fin 4000) (q : Fin 128) (r : Fin 100000)
    (h0 : ∀ k : Fin 128, x0 (ix2 p k) = A (ix2 r k)) (h1 : ∀ k : Fin 128, x1 (ix2 p k) = B (ix2 r k))
    (h2 : ∀ k : Fin 128, x2 (ix2 p k) = H (ix2 r k))
    (h3 : x3 (ix2 p (0 : Fin 1)) = I1 (ix2 r (0 : Fin 1))) (h4 : x4 (ix2 p (0 : Fin 1)) = I2 (ix2 r (0 : Fin 1)))
    (h5 : x5 = W0) (h6 : x6 = W1) (h7 : x7 = Wl) (h8 : x8 = b) :
    entry x0 x1 x2 x3 x4 x5 x6 x7 x8 p q = entry A B H I1 I2 W0 W1 Wl b r q := by
  subst h5 h6 h7 h8
  unfold entry
  simp only [h0, h1, h2, h3, h4]

/-- The column of reciprocals 1 / d of a column of degrees. -/
def invDeg (D : (⟨2, ![100000, 1]⟩ : Shape).Idx → EReal) : (⟨2, ![100000, 1]⟩ : Shape).Idx → EReal :=
  fun j => Ideal.div 1 (D j)

/-- Multiplying by the reciprocal of a nonzero extended real is dividing by it. -/
theorem mul_div_one (x d : EReal) (hd : d ≠ 0) : x * Ideal.div 1 d = Ideal.div x d := by
  unfold Ideal.div
  rw [if_neg hd, if_neg hd, one_mul]

/-- A count clamped from below by one is not zero. -/
theorem max_one_ne_zero (s : EReal) : max s 1 ≠ 0 :=
  ne_of_gt (lt_of_lt_of_le zero_lt_one (le_max_right s 1))

end Cert.Layer

end
-- ==== Proof.LayerCongr.lean ====
/-
  The layer function of equal arrays is equal: the step that replaces, argument by argument, what a region finds
  in its nine input buffers by the stage that wrote each of them.
-/
import proofs.«140152_j49323404427377_2_alg».proof.Proof.LayerSpec

noncomputable section

namespace Cert.Layer

open Idealize.ShloMosaic

theorem layer_congr {A A' B B' H H' : (⟨2, ![100000, 128]⟩ : Shape).Idx → EReal}
    {I1 I1' I2 I2' : (⟨2, ![100000, 1]⟩ : Shape).Idx → EReal}
    {W0 W0' W1 W1' Wl Wl' : (⟨2, ![128, 128]⟩ : Shape).Idx → EReal} {b b' : (⟨1, ![128]⟩ : Shape).Idx → EReal}
    (hA : A = A') (hB : B = B') (hH : H = H') (h1 : I1 = I1') (h2 : I2 = I2')
    (hW0 : W0 = W0') (hW1 : W1 = W1') (hWl : Wl = Wl') (hb : b = b') :
    layer A B H I1 I2 W0 W1 Wl b = layer A' B' H' I1' I2' W0' W1' Wl' b' := by
  subst hA hB hH h1 h2 hW0 hW1 hWl hb
  rfl

end Cert.Layer

end
-- ==== Proof.Args.lean ====
/-
  The nine argument arrays as the program is launched with them, named once.
-/
import proofs.«140152_j49323404427377_2_alg».proof.Proof.Gen.KernelIdeal.Frame
import Idealize.ShloMosaic.PureOps.Ideal

noncomputable section

namespace Cert.KernelIdeal.Args

open Idealize.ShloMosaic Idealize.ShloMosaic.TcCoe Idealize.SL.Sem
open Cert.KernelIdeal

variable (m : (ℓ : Loc nD τ sig) → Buf (Elt Ideal) ℓ) (c : Dev nD)

abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)

end Cert.KernelIdeal.Args

end
-- ==== Proof.RefLayers.lean ====
/-
  The reference's three layers, each as the layer function (LayerSpec) of the stages that feed it.

  The reference divides each aggregated array by its degree column broadcast along the features; the degree is
  max(count, 1), never zero, so each quotient is the product with the reciprocal degree. Its three matrix products
  are the plain sums over the contracted index, added in the order (first + second) + third, then the bias row,
  then the maximum with zero: entry by entry the layer function.
-/
import proofs.«140152_j49323404427377_2_alg».proof.Proof.Gen.ReferenceIdeal.Read
import proofs.«140152_j49323404427377_2_alg».proof.Proof.LayerSpec
import Idealize.ShloMosaic.Lib.IdealHost

set_option maxRecDepth 16384

noncomputable section

namespace Cert.ReferenceIdeal.RefValue

open Idealize.ShloMosaic Idealize.ShloMosaic.ValueIdx Cert.ReferenceIdeal Cert.ReferenceIdeal.Read

variable (x0 : (⟨S100000x128, .f32⟩ : BufTy).Contents (Elt Ideal)) (x1 : (⟨S10000x128, .f32⟩ : BufTy).Contents (Elt Ideal)) (x2 : (⟨S3x2x128x128, .f32⟩ : BufTy).Contents (Elt Ideal))
  (x3 : (⟨S3x128x128, .f32⟩ : BufTy).Contents (Elt Ideal)) (x4 : (⟨S3x128, .f32⟩ : BufTy).Contents (Elt Ideal)) (x5 x6 : (⟨S1600000, .i32⟩ : BufTy).Contents (Elt Ideal)) (x7 x8 : (⟨S200000, .i32⟩ : BufTy).Contents (Elt Ideal))

/-- The first relation's degree column is max(count, 1): never zero. -/
theorem deg1_ne (j : S100000x1.Idx) : val_main_v7 (F := Ideal) x6 j ≠ 0 := by
  rw [val_main_v7_apply, val_main_v6_apply, val_main_v5_apply, val_main_cst_2_apply]
  show max _ (Ideal.ofBits .f32 0x3F800000#32) ≠ 0
  rw [Ideal.ofBits_one_f32]
  exact Cert.Layer.max_one_ne_zero _

/-- The second relation's degree column likewise. -/
theorem deg2_ne (j : S100000x1.Idx) : val_main_v13 (F := Ideal) x8 j ≠ 0 := by
  rw [val_main_v13_apply, val_main_v12_apply, val_main_v11_apply, val_main_cst_4_apply]
  show max _ (Ideal.ofBits .f32 0x3F800000#32) ≠ 0
  rw [Ideal.ofBits_one_f32]
  exact Cert.Layer.max_one_ne_zero _

/-- Layer 1 of the reference, entry by entry: the quotients by the broadcast degrees are the products with the
    reciprocal degrees (the degrees are never zero), the three `dot_general`s are the plain sums over the contracted
    index, added in the same order, the bias row is repeated down the nodes, and `relu` is the maximum with zero. -/
theorem layer0_eq : (val_main_v54 (F := Ideal) x0 x1 x2 x3 x4 x5 x6 x7 x8)
    = Cert.Layer.layer (val_main_v23 (F := Ideal) x0 x5 x6) (val_main_v35 (F := Ideal) x1 x7 x8) x0 (Cert.Layer.invDeg (val_main_v7 (F := Ideal) x6)) (Cert.Layer.invDeg (val_main_v13 (F := Ideal) x8))
        (val_main_v39 (F := Ideal) x2) (val_main_v42 (F := Ideal) x2) (val_main_v46 (F := Ideal) x3) (val_main_v50 (F := Ideal) x4) := by
  funext i
  obtain ⟨r, q, rfl⟩ : ∃ (r : Fin 100000) (q : Fin 128), i = ix2 r q := ⟨i 0, i 1, eq_ix2 i⟩
  rw [Cert.Layer.layer_ix2]
  unfold Cert.Layer.entry
  rw [val_main_v54_apply, val_main_v53_apply, val_main_v48_apply, val_main_v44_apply, val_main_v40_apply, val_main_v43_apply,
    val_main_v47_apply, val_main_v52_apply, val_main_v51_apply, val_main_call0_v0_apply, val_main_call0_cst_apply]
  have el : ∀ k : Fin 128, lidx_main_v40 (ix2 r q) k = ix2 r k := fun k => funext fun a => by
    match a with
    | ⟨0, _⟩ => rfl
    | ⟨1, _⟩ => rfl
  have er : ∀ k : Fin 128, ridx_main_v40 (ix2 r q) k = ix2 k q := fun k => funext fun a => by
    match a with
    | ⟨0, _⟩ => rfl
    | ⟨1, _⟩ => rfl
  have el1 : ∀ k : Fin 128, lidx_main_v43 (ix2 r q) k = ix2 r k := fun k => funext fun a => by
    match a with
    | ⟨0, _⟩ => rfl
    | ⟨1, _⟩ => rfl
  have er1 : ∀ k : Fin 128, ridx_main_v43 (ix2 r q) k = ix2 k q := fun k => funext fun a => by
    match a with
    | ⟨0, _⟩ => rfl
    | ⟨1, _⟩ => rfl
  have el2 : ∀ k : Fin 128, lidx_main_v47 (ix2 r q) k = ix2 r k := fun k => funext fun a => by
    match a with
    | ⟨0, _⟩ => rfl
    | ⟨1, _⟩ => rfl
  have er2 : ∀ k : Fin 128, ridx_main_v47 (ix2 r q) k = ix2 k q := fun k => funext fun a => by
    match a with
    | ⟨0, _⟩ => rfl
    | ⟨1, _⟩ => rfl
  have eb : idx_main_v51 (idx_main_v52 (ix2 r q)) = ix1 q := funext fun a => by
    match a with
    | ⟨0, _⟩ => rfl
  have eA : ∀ k : Fin 128, (val_main_v25 (F := Ideal) x0 x5 x6) (ix2 r k) = (val_main_v23 (F := Ideal) x0 x5 x6) (ix2 r k) * Cert.Layer.invDeg (val_main_v7 (F := Ideal) x6) (ix2 r (0 : Fin 1)) := fun k => by
    rw [val_main_v25_apply, val_main_v24_apply]
    have ei : idx_main_v24 (ix2 r k) = ix2 r (0 : Fin 1) := funext fun a => by
      match a with
      | ⟨0, _⟩ => rfl
      | ⟨1, _⟩ => rfl
    rw [ei]
    exact (Cert.Layer.mul_div_one _ _ (deg1_ne x6 _)).symm
  have eB : ∀ k : Fin 128, (val_main_v37 (F := Ideal) x1 x7 x8) (ix2 r k) = (val_main_v35 (F := Ideal) x1 x7 x8) (ix2 r k) * Cert.Layer.invDeg (val_main_v13 (F := Ideal) x8) (ix2 r (0 : Fin 1)) := fun k => by
    rw [val_main_v37_apply, val_main_v36_apply]
    have ei : idx_main_v36 (ix2 r k) = ix2 r (0 : Fin 1) := funext fun a => by
      match a with
      | ⟨0, _⟩ => rfl
      | ⟨1, _⟩ => rfl
    rw [ei]
    exact (Cert.Layer.mul_div_one _ _ (deg2_ne x8 _)).symm
  simp only [el, er, el1, er1, el2, er2, eb, eA, eB]
  show max _ (Ideal.ofBits .f32 0x00000000#32) = _
  rw [Ideal.ofBits_zero_f32]
  rfl

/-- Layer 2 of the reference, entry by entry: the quotients by the broadcast degrees are the products with the
    reciprocal degrees (the degrees are never zero), the three `dot_general`s are the plain sums over the contracted
    index, added in the same order, the bias row is repeated down the nodes, and `relu` is the maximum with zero. -/
theorem layer1_eq : (val_main_v95 (F := Ideal) x0 x1 x2 x3 x4 x5 x6 x7 x8)
    = Cert.Layer.layer (val_main_v64 (F := Ideal) x0 x1 x2 x3 x4 x5 x6 x7 x8) (val_main_v76 (F := Ideal) x1 x7 x8) (val_main_v54 (F := Ideal) x0 x1 x2 x3 x4 x5 x6 x7 x8) (Cert.Layer.invDeg (val_main_v7 (F := Ideal) x6)) (Cert.Layer.invDeg (val_main_v13 (F := Ideal) x8))
        (val_main_v80 (F := Ideal) x2) (val_main_v83 (F := Ideal) x2) (val_main_v87 (F := Ideal) x3) (val_main_v91 (F := Ideal) x4) := by
  funext i
  obtain ⟨r, q, rfl⟩ : ∃ (r : Fin 100000) (q : Fin 128), i = ix2 r q := ⟨i 0, i 1, eq_ix2 i⟩
  rw [Cert.Layer.layer_ix2]
  unfold Cert.Layer.entry
  rw [val_main_v95_apply, val_main_v94_apply, val_main_v89_apply, val_main_v85_apply, val_main_v81_apply, val_main_v84_apply,
    val_main_v88_apply, val_main_v93_apply, val_main_v92_apply, val_main_call1_v0_apply, val_main_call1_cst_apply]
  have el : ∀ k : Fin 128, lidx_main_v81 (ix2 r q) k = ix2 r k := fun k => funext fun a => by
    match a with
    | ⟨0, _⟩ => rfl
    | ⟨1, _⟩ => rfl
  have er : ∀ k : Fin 128, ridx_main_v81 (ix2 r q) k = ix2 k q := fun k => funext fun a => by
    match a with
    | ⟨0, _⟩ => rfl
    | ⟨1, _⟩ => rfl
  have el1 : ∀ k : Fin 128, lidx_main_v84 (ix2 r q) k = ix2 r k := fun k => funext fun a => by
    match a with
    | ⟨0, _⟩ => rfl
    | ⟨1, _⟩ => rfl
  have er1 : ∀ k : Fin 128, ridx_main_v84 (ix2 r q) k = ix2 k q := fun k => funext fun a => by
    match a with
    | ⟨0, _⟩ => rfl
    | ⟨1, _⟩ => rfl
  have el2 : ∀ k : Fin 128, lidx_main_v88 (ix2 r q) k = ix2 r k := fun k => funext fun a => by
    match a with
    | ⟨0, _⟩ => rfl
    | ⟨1, _⟩ => rfl
  have er2 : ∀ k : Fin 128, ridx_main_v88 (ix2 r q) k = ix2 k q := fun k => funext fun a => by
    match a with
    | ⟨0, _⟩ => rfl
    | ⟨1, _⟩ => rfl
  have eb : idx_main_v92 (idx_main_v93 (ix2 r q)) = ix1 q := funext fun a => by
    match a with
    | ⟨0, _⟩ => rfl
  have eA : ∀ k : Fin 128, (val_main_v66 (F := Ideal) x0 x1 x2 x3 x4 x5 x6 x7 x8) (ix2 r k) = (val_main_v64 (F := Ideal) x0 x1 x2 x3 x4 x5 x6 x7 x8) (ix2 r k) * Cert.Layer.invDeg (val_main_v7 (F := Ideal) x6) (ix2 r (0 : Fin 1)) := fun k => by
    rw [val_main_v66_apply, val_main_v65_apply]
    have ei : idx_main_v65 (ix2 r k) = ix2 r (0 : Fin 1) := funext fun a => by
      match a with
      | ⟨0, _⟩ => rfl
      | ⟨1, _⟩ => rfl
    rw [ei]
    exact (Cert.Layer.mul_div_one _ _ (deg1_ne x6 _)).symm
  have eB : ∀ k : Fin 128, (val_main_v78 (F := Ideal) x1 x7 x8) (ix2 r k) = (val_main_v76 (F := Ideal) x1 x7 x8) (ix2 r k) * Cert.Layer.invDeg (val_main_v13 (F := Ideal) x8) (ix2 r (0 : Fin 1)) := fun k => by
    rw [val_main_v78_apply, val_main_v77_apply]
    have ei : idx_main_v77 (ix2 r k) = ix2 r (0 : Fin 1) := funext fun a => by
      match a with
      | ⟨0, _⟩ => rfl
      | ⟨1, _⟩ => rfl
    rw [ei]
    exact (Cert.Layer.mul_div_one _ _ (deg2_ne x8 _)).symm
  simp only [el, er, el1, er1, el2, er2, eb, eA, eB]
  show max _ (Ideal.ofBits .f32 0x00000000#32) = _
  rw [Ideal.ofBits_zero_f32]
  rfl

/-- Layer 3 of the reference, entry by entry: the quotients by the broadcast degrees are the products with the
    reciprocal degrees (the degrees are never zero), the three `dot_general`s are the plain sums over the contracted
    index, added in the same order, the bias row is repeated down the nodes, and `relu` is the maximum with zero. -/
theorem layer2_eq : (val_main_v136 (F := Ideal) x0 x1 x2 x3 x4 x5 x6 x7 x8)
    = Cert.Layer.layer (val_main_v105 (F := Ideal) x0 x1 x2 x3 x4 x5 x6 x7 x8) (val_main_v117 (F := Ideal) x1 x7 x8) (val_main_v95 (F := Ideal) x0 x1 x2 x3 x4 x5 x6 x7 x8) (Cert.Layer.invDeg (val_main_v7 (F := Ideal) x6)) (Cert.Layer.invDeg (val_main_v13 (F := Ideal) x8))
        (val_main_v121 (F := Ideal) x2) (val_main_v124 (F := Ideal) x2) (val_main_v128 (F := Ideal) x3) (val_main_v132 (F := Ideal) x4) := by
  funext i
  obtain ⟨r, q, rfl⟩ : ∃ (r : Fin 100000) (q : Fin 128), i = ix2 r q := ⟨i 0, i 1, eq_ix2 i⟩
  rw [Cert.Layer.layer_ix2]
  unfold Cert.Layer.entry
  rw [val_main_v136_apply, val_main_v135_apply, val_main_v130_apply, val_main_v126_apply, val_main_v122_apply, val_main_v125_apply,
    val_main_v129_apply, val_main_v134_apply, val_main_v133_apply, val_main_call2_v0_apply, val_main_call2_cst_apply]
  have el : ∀ k : Fin 128, lidx_main_v122 (ix2 r q) k = ix2 r k := fun k => funext fun a => by
    match a with
    | ⟨0, _⟩ => rfl
    | ⟨1, _⟩ => rfl
  have er : ∀ k : Fin 128, ridx_main_v122 (ix2 r q) k = ix2 k q := fun k => funext fun a => by
    match a with
    | ⟨0, _⟩ => rfl
    | ⟨1, _⟩ => rfl
  have el1 : ∀ k : Fin 128, lidx_main_v125 (ix2 r q) k = ix2 r k := fun k => funext fun a => by
    match a with
    | ⟨0, _⟩ => rfl
    | ⟨1, _⟩ => rfl
  have er1 : ∀ k : Fin 128, ridx_main_v125 (ix2 r q) k = ix2 k q := fun k => funext fun a => by
    match a with
    | ⟨0, _⟩ => rfl
    | ⟨1, _⟩ => rfl
  have el2 : ∀ k : Fin 128, lidx_main_v129 (ix2 r q) k = ix2 r k := fun k => funext fun a => by
    match a with
    | ⟨0, _⟩ => rfl
    | ⟨1, _⟩ => rfl
  have er2 : ∀ k : Fin 128, ridx_main_v129 (ix2 r q) k = ix2 k q := fun k => funext fun a => by
    match a with
    | ⟨0, _⟩ => rfl
    | ⟨1, _⟩ => rfl
  have eb : idx_main_v133 (idx_main_v134 (ix2 r q)) = ix1 q := funext fun a => by
    match a with
    | ⟨0, _⟩ => rfl
  have eA : ∀ k : Fin 128, (val_main_v107 (F := Ideal) x0 x1 x2 x3 x4 x5 x6 x7 x8) (ix2 r k) = (val_main_v105 (F := Ideal) x0 x1 x2 x3 x4 x5 x6 x7 x8) (ix2 r k) * Cert.Layer.invDeg (val_main_v7 (F := Ideal) x6) (ix2 r (0 : Fin 1)) := fun k => by
    rw [val_main_v107_apply, val_main_v106_apply]
    have ei : idx_main_v106 (ix2 r k) = ix2 r (0 : Fin 1) := funext fun a => by
      match a with
      | ⟨0, _⟩ => rfl
      | ⟨1, _⟩ => rfl
    rw [ei]
    exact (Cert.Layer.mul_div_one _ _ (deg1_ne x6 _)).symm
  have eB : ∀ k : Fin 128, (val_main_v119 (F := Ideal) x1 x7 x8) (ix2 r k) = (val_main_v117 (F := Ideal) x1 x7 x8) (ix2 r k) * Cert.Layer.invDeg (val_main_v13 (F := Ideal) x8) (ix2 r (0 : Fin 1)) := fun k => by
    rw [val_main_v119_apply, val_main_v118_apply]
    have ei : idx_main_v118 (ix2 r k) = ix2 r (0 : Fin 1) := funext fun a => by
      match a with
      | ⟨0, _⟩ => rfl
      | ⟨1, _⟩ => rfl
    rw [ei]
    exact (Cert.Layer.mul_div_one _ _ (deg2_ne x8 _)).symm
  simp only [el, er, el1, er1, el2, er2, eb, eA, eB]
  show max _ (Ideal.ofBits .f32 0x00000000#32) = _
  rw [Ideal.ofBits_zero_f32]
  rfl

end Cert.ReferenceIdeal.RefValue

end
-- ==== Proof.LibTypedRef.lean ====
/-
  A typed reference to a buffer carries a proof that the buffer's type is the value's type, and moves contents
  between the two along it. Moving a value to the buffer's type and back is the identity, and a value moved to the
  buffer's type is (heterogeneously) the value itself: the two facts that let a chain of host operations, written
  through typed references, be read as the plain composition of the operations.
-/
import Idealize.ShloMosaic.Lib.StableHlo

namespace Cert.Lib.TypedRef

open Idealize.ShloMosaic Idealize.ShloMosaic.StableHlo

variable {sig : RefSig} {Val : EltTy → Type} {T : BufTy}

/-- To the buffer's type and back. -/
theorem ofBuf_toBuf_id (x : TRef sig T) (v : T.Contents Val) : x.ofBuf (x.toBuf v) = v := by
  obtain ⟨r, h, h2, h3⟩ := x
  subst h
  rfl

/-- A value at the buffer's type is the value. -/
theorem toBuf_heq (x : TRef sig T) (v w : T.Contents Val) (h : v = w) : HEq (x.toBuf v) w := by
  subst h
  exact cast_heq _ _

end Cert.Lib.TypedRef
-- ==== Proof.Bound1.lean ====
/-
  Boundary 1 — the buffers when the first kernel region is entered, as functions of the argument arrays.

  The host operations before the first region compute, from the argument arrays alone: the two aggregated
  neighbour sums (a gather by the source indices, wrapped when negative, scattered-and-added by the destination
  indices into zeros), the two degree columns max(count, 1) and their reciprocals 1 / d, and the first layer's
  slices of the three weight tensors and of the bias. The gathers, scatters and slices are the reference's own
  operations of the same arguments, so each buffer is the reference's stage of the same name; the reciprocal
  column is 1 / d entry by entry. No host operation writes an argument array.
-/
import proofs.«140152_j49323404427377_2_alg».proof.Proof.Gen.KernelIdeal.Frame
import proofs.«140152_j49323404427377_2_alg».proof.Proof.Gen.ReferenceIdeal.Read
import proofs.«140152_j49323404427377_2_alg».proof.Proof.LayerSpec
import proofs.«140152_j49323404427377_2_alg».proof.Proof.Args
import proofs.«140152_j49323404427377_2_alg».proof.Proof.LibTypedRef
import Idealize.ShloMosaic.Lib.StableHlo.Run
import Idealize.ShloMosaic.Lib.IdealHost

set_option maxRecDepth 16384

noncomputable section

namespace Cert.KernelIdeal.Bound1

open Idealize.ShloMosaic Idealize.ShloMosaic.TcCoe Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg) (c : Dev nD)

open Cert.KernelIdeal.Args Idealize.ShloMosaic.ValueIdx

theorem W1_arg0 : W1 m ρ c (Proc.devRef .tc main_arg0) = x0 m c := by
  show StableHlo.after hostOps0 (W0 m ρ c) (Proc.devRef .tc main_arg0) = _
  after_results_simp <;> rfl

theorem W1_arg1 : W1 m ρ c (Proc.devRef .tc main_arg1) = x1 m c := by
  show StableHlo.after hostOps0 (W0 m ρ c) (Proc.devRef .tc main_arg1) = _
  after_results_simp <;> rfl

theorem W1_arg2 : W1 m ρ c (Proc.devRef .tc main_arg2) = x2 m c := by
  show StableHlo.after hostOps0 (W0 m ρ c) (Proc.devRef .tc main_arg2) = _
  after_results_simp <;> rfl

theorem W1_arg3 : W1 m ρ c (Proc.devRef .tc main_arg3) = x3 m c := by
  show StableHlo.after hostOps0 (W0 m ρ c) (Proc.devRef .tc main_arg3) = _
  after_results_simp <;> rfl

theorem W1_arg4 : W1 m ρ c (Proc.devRef .tc main_arg4) = x4 m c := by
  show StableHlo.after hostOps0 (W0 m ρ c) (Proc.devRef .tc main_arg4) = _
  after_results_simp <;> rfl

theorem W1_arg5 : W1 m ρ c (Proc.devRef .tc main_arg5) = x5 m c := by
  show StableHlo.after hostOps0 (W0 m ρ c) (Proc.devRef .tc main_arg5) = _
  after_results_simp <;> rfl

theorem W1_arg6 : W1 m ρ c (Proc.devRef .tc main_arg6) = x6 m c := by
  show StableHlo.after hostOps0 (W0 m ρ c) (Proc.devRef .tc main_arg6) = _
  after_results_simp <;> rfl

theorem W1_arg7 : W1 m ρ c (Proc.devRef .tc main_arg7) = x7 m c := by
  show StableHlo.after hostOps0 (W0 m ρ c) (Proc.devRef .tc main_arg7) = _
  after_results_simp <;> rfl

theorem W1_arg8 : W1 m ρ c (Proc.devRef .tc main_arg8) = x8 m c := by
  show StableHlo.after hostOps0 (W0 m ρ c) (Proc.devRef .tc main_arg8) = _
  after_results_simp <;> rfl

theorem W1_v27 : W1 m ρ c (Proc.devRef .tc main_call0_v27) = (val_main_v23 (F := Ideal) (x0 m c) (x5 m c) (x6 m c)) := by
  show StableHlo.after hostOps0 (W0 m ρ c) (Proc.devRef .tc main_call0_v27) = _
  after_results_simp
  simp only [Cert.Lib.TypedRef.ofBuf_toBuf_id]
  refine eq_of_heq (Cert.Lib.TypedRef.toBuf_heq _ _ _ ?_)
  rfl

theorem W1_v37 : W1 m ρ c (Proc.devRef .tc main_call0_v37) = (val_main_v35 (F := Ideal) (x1 m c) (x7 m c) (x8 m c)) := by
  show StableHlo.after hostOps0 (W0 m ρ c) (Proc.devRef .tc main_call0_v37) = _
  after_results_simp
  simp only [Cert.Lib.TypedRef.ofBuf_toBuf_id]
  refine eq_of_heq (Cert.Lib.TypedRef.toBuf_heq _ _ _ ?_)
  rfl

theorem W1_v39 : W1 m ρ c (Proc.devRef .tc main_call0_v39) = (val_main_v39 (F := Ideal) (x2 m c)) := by
  show StableHlo.after hostOps0 (W0 m ρ c) (Proc.devRef .tc main_call0_v39) = _
  after_results_simp
  rfl

theorem W1_v41 : W1 m ρ c (Proc.devRef .tc main_call0_v41) = (val_main_v42 (F := Ideal) (x2 m c)) := by
  show StableHlo.after hostOps0 (W0 m ρ c) (Proc.devRef .tc main_call0_v41) = _
  after_results_simp
  rfl

theorem W1_v43 : W1 m ρ c (Proc.devRef .tc main_call0_v43) = (val_main_v46 (F := Ideal) (x3 m c)) := by
  show StableHlo.after hostOps0 (W0 m ρ c) (Proc.devRef .tc main_call0_v43) = _
  after_results_simp
  rfl

theorem W1_v45 : W1 m ρ c (Proc.devRef .tc main_call0_v45) = (val_main_v50 (F := Ideal) (x4 m c)) := by
  show StableHlo.after hostOps0 (W0 m ρ c) (Proc.devRef .tc main_call0_v45) = _
  after_results_simp
  rfl

/-- One over a degree column: the quotient of the all-ones column by it, entry by entry. -/
theorem recip_eq (D : FVec Ideal S100000x1 .f32) :
    Host.divf (F := Ideal) (broadcastInDim S100000x1 ![] bcast_S_S100000x1 (constant (F := Ideal) S_ .f32 0x3F800000#32)) D
      = Cert.Layer.invDeg D := by
  funext j
  rw [hostDivf_apply, broadcastInDim_scalar_apply]
  show Ideal.div (Ideal.ofBits .f32 0x3F800000#32) (D j) = Ideal.div 1 (D j)
  rw [Ideal.ofBits_one_f32]

theorem W1_v15_raw : W1 m ρ c (Proc.devRef .tc main_call0_v15) = Host.divf (F := Ideal) (broadcastInDim S100000x1 ![] bcast_S_S100000x1 (constant (F := Ideal) S_ .f32 0x3F800000#32)) (val_main_v7 (F := Ideal) (x6 m c)) := by
  show StableHlo.after hostOps0 (W0 m ρ c) (Proc.devRef .tc main_call0_v15) = _
  after_results_simp
  simp only [Cert.Lib.TypedRef.ofBuf_toBuf_id]
  refine eq_of_heq (Cert.Lib.TypedRef.toBuf_heq _ _ _ ?_)
  rfl

theorem W1_v17_raw : W1 m ρ c (Proc.devRef .tc main_call0_v17) = Host.divf (F := Ideal) (broadcastInDim S100000x1 ![] bcast_S_S100000x1 (constant (F := Ideal) S_ .f32 0x3F800000#32)) (val_main_v13 (F := Ideal) (x8 m c)) := by
  show StableHlo.after hostOps0 (W0 m ρ c) (Proc.devRef .tc main_call0_v17) = _
  after_results_simp
  simp only [Cert.Lib.TypedRef.ofBuf_toBuf_id]
  refine eq_of_heq (Cert.Lib.TypedRef.toBuf_heq _ _ _ ?_)
  rfl

/-- The first relation's reciprocal-degree column. -/
theorem W1_v15 : W1 m ρ c (Proc.devRef .tc main_call0_v15) = Cert.Layer.invDeg (val_main_v7 (F := Ideal) (x6 m c)) :=
  (W1_v15_raw m ρ c).trans (recip_eq _)

/-- The second relation's reciprocal-degree column. -/
theorem W1_v17 : W1 m ρ c (Proc.devRef .tc main_call0_v17) = Cert.Layer.invDeg (val_main_v13 (F := Ideal) (x8 m c)) :=
  (W1_v17_raw m ρ c).trans (recip_eq _)

end Cert.KernelIdeal.Bound1

end
-- ==== Proof.Pay.lean ====
/-
  What one call of the layer kernel computes from the blocks it loads, entry by entry, on the extended reals.

  The body scales each of the two aggregated blocks by its column of reciprocal degrees (a [4000,1] column
  broadcast along the 128 features), multiplies the two scaled blocks and the node features' block by the three
  128×128 weight matrices (a matrix product into a zero accumulator is the plain sum over the contracted index; a
  change of float format is the identity), adds the three products in that order, adds the bias row (a [128]
  vector laid out as [1,128] and repeated down the 4000 rows) and takes the maximum with zero. That is
  `Cert.Layer.entry` of the blocks.
-/
import proofs.«140152_j49323404427377_2_alg».proof.Proof.Gen.KernelIdeal.Skeleton
import proofs.«140152_j49323404427377_2_alg».proof.Proof.LayerSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-- A column [a,1] repeated along a second axis of extent b reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

theorem lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block product into a zero accumulator, at row p and column q: the sum over k of L[p,k] · R[k,q]. -/
theorem matmul_zero_ix {φ₁ φ₂ : FTy} (L : FVec Ideal S4000x128 φ₁) (R : FVec Ideal S128x128 φ₂) (p : Fin 4000) (q : Fin 128) :
    matmul dot_S4000x128_S128x128_S4000x128_1_0_0_1_n_n none L R (constant (F := Ideal) S4000x128 .f32 0x00000000#32) (ix2 p q)
      = ∑ k : Fin 128, L (ix2 p k) * R (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_0 _ _
    | ⟨1, _⟩ => exact (lhs_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The first layer's body. -/
theorem pay0_apply (x0 x1 x2 : FVec Ideal S4000x128 .f32) (x3 x4 : FVec Ideal S4000x1 .f32)
    (x5 x6 x7 : FVec Ideal S128x128 .f32) (x8 : FVec Ideal S128 .f32) (p : Fin 4000) (q : Fin 128) :
    k0_pay1 (F := Ideal) x0 x3 x1 x4 x2 x5 x6 x7 x8 (ix2 p q) = Cert.Layer.entry x0 x1 x2 x3 x4 x5 x6 x7 x8 p q := by
  unfold k0_pay1 Cert.Layer.entry
  simp only [shapeCast_self]
  simp only [maximumf_apply, addf_apply, matmul_zero_ix, broadcast_apply, truncf_apply, mulf_apply,
    broadcastTo_a1_ab_apply, broadcastTo_1b_ab_apply, shapeCast_a_1a_apply]
  show max _ (Ideal.ofBits .f32 0x00000000#32) = _
  rw [Ideal.ofBits_zero_f32]

/-- The second layer's body (the same arithmetic; the node features' block passes through one more identity cast). -/
theorem pay1_apply (x0 x1 x2 : FVec Ideal S4000x128 .f32) (x3 x4 : FVec Ideal S4000x1 .f32)
    (x5 x6 x7 : FVec Ideal S128x128 .f32) (x8 : FVec Ideal S128 .f32) (p : Fin 4000) (q : Fin 128) :
    k1_pay1 (F := Ideal) x0 x3 x1 x4 x2 x5 x6 x7 x8 (ix2 p q) = Cert.Layer.entry x0 x1 x2 x3 x4 x5 x6 x7 x8 p q := by
  unfold k1_pay1 Cert.Layer.entry
  simp only [shapeCast_self]
  simp only [maximumf_apply, addf_apply, matmul_zero_ix, broadcast_apply, truncf_apply, mulf_apply,
    broadcastTo_a1_ab_apply, broadcastTo_1b_ab_apply, shapeCast_a_1a_apply]
  show max _ (Ideal.ofBits .f32 0x00000000#32) = _
  rw [Ideal.ofBits_zero_f32]

/-- The third layer's body. -/
theorem pay2_apply (x0 x1 x2 : FVec Ideal S4000x128 .f32) (x3 x4 : FVec Ideal S4000x1 .f32)
    (x5 x6 x7 : FVec Ideal S128x128 .f32) (x8 : FVec Ideal S128 .f32) (p : Fin 4000) (q : Fin 128) :
    k2_pay1 (F := Ideal) x0 x3 x1 x4 x2 x5 x6 x7 x8 (ix2 p q) = Cert.Layer.entry x0 x1 x2 x3 x4 x5 x6 x7 x8 p q := by
  unfold k2_pay1 Cert.Layer.entry
  simp only [shapeCast_self]
  simp only [maximumf_apply, addf_apply, matmul_zero_ix, broadcast_apply, truncf_apply, mulf_apply,
    broadcastTo_a1_ab_apply, broadcastTo_1b_ab_apply, shapeCast_a_1a_apply]
  show max _ (Ideal.ofBits .f32 0x00000000#32) = _
  rw [Ideal.ofBits_zero_f32]

end Cert.KernelIdeal.Pay

end
-- ==== Proof.Region0.lean ====
/-
  Region 0: the array the layer kernel's first call leaves.

  The grid has 25 points; point t stages rows 4000·t … 4000·t + 3999 of the two aggregated arrays, of the node
  features and of the two reciprocal-degree columns, the three weight matrices and the bias whole, and writes back
  rows 4000·t … 4000·t + 3999 of the output. So what point t writes back is the layer (LayerSpec) of the arrays the
  region finds, restricted to those rows; the 25 row blocks tile the 100000 rows; hence the output array ends
  holding the layer of the arrays as the region finds them.
-/
import proofs.«140152_j49323404427377_2_alg».proof.Proof.Gen.KernelIdeal.Frame
import proofs.«140152_j49323404427377_2_alg».proof.Proof.Pay

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 25 grid points: the row-blocked windows are at block (t, 0), the whole ones at
    block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

theorem row_lt (t : Fin cfg0.N) (p : Fin 4000) : 4000 * t.val + p.val < 100000 := by
  have ht : t.val < 25 := t.isLt
  have hp := p.isLt
  omega

/-- The array's row that row p of point t's block stands for. -/
abbrev row (t : Fin cfg0.N) (p : Fin 4000) : Fin 100000 := ⟨4000 * t.val + p.val, row_lt t p⟩

/-- The layer of the arrays as the region finds them. -/
abbrev G (c : Dev nD) : S100000x128.Idx → EReal :=
  Cert.Layer.layer (V c main_call0_v27) (V c main_call0_v37) (V c main_arg0) (V c main_call0_v15) (V c main_call0_v17)
    (V c main_call0_v39) (V c main_call0_v41) (V c main_call0_v43) (V c main_call0_v45)

/-! ## Each window's block at point t, read off its array -/

theorem blk_0 (c : Dev nD) (t : Fin cfg0.N) (p : Fin 4000) (k : Fin 128) :
    iblk0 V c 0 t (ix2 p k) = V c main_call0_v27 (ix2 (row t p) k) := by
  show V c main_call0_v27 (((cfg0.win 0).blk t).view.emb (ix2 p k)) = _
  refine congrArg _ (funext fun a => Fin.ext ?_)
  obtain ⟨e00, e01, -⟩ := idx_facts t
  match a with
  | ⟨0, _⟩ => show win0_0.index t (0 : Fin 2) * 4000 + 1 * p.val = 4000 * t.val + p.val; omega
  | ⟨1, _⟩ => show win0_0.index t (1 : Fin 2) * 128 + 1 * k.val = k.val; omega

theorem blk_1 (c : Dev nD) (t : Fin cfg0.N) (p : Fin 4000) (k : Fin 128) :
    iblk0 V c 1 t (ix2 p k) = V c main_call0_v37 (ix2 (row t p) k) := by
  show V c main_call0_v37 (((cfg0.win 1).blk t).view.emb (ix2 p k)) = _
  refine congrArg _ (funext fun a => Fin.ext ?_)
  obtain ⟨-, -, e10, e11, -⟩ := idx_facts t
  match a with
  | ⟨0, _⟩ => show win0_1.index t (0 : Fin 2) * 4000 + 1 * p.val = 4000 * t.val + p.val; omega
  | ⟨1, _⟩ => show win0_1.index t (1 : Fin 2) * 128 + 1 * k.val = k.val; omega

theorem blk_2 (c : Dev nD) (t : Fin cfg0.N) (p : Fin 4000) (k : Fin 128) :
    iblk0 V c 2 t (ix2 p k) = V c main_arg0 (ix2 (row t p) k) := by
  show V c main_arg0 (((cfg0.win 2).blk t).view.emb (ix2 p k)) = _
  refine congrArg _ (funext fun a => Fin.ext ?_)
  obtain ⟨-, -, -, -, e20, e21, -⟩ := idx_facts t
  match a with
  | ⟨0, _⟩ => show win0_2.index t (0 : Fin 2) * 4000 + 1 * p.val = 4000 * t.val + p.val; omega
  | ⟨1, _⟩ => show win0_2.index t (1 : Fin 2) * 128 + 1 * k.val = k.val; omega

theorem blk_3 (c : Dev nD) (t : Fin cfg0.N) (p : Fin 4000) :
    iblk0 V c 3 t (ix2 p (0 : Fin 1)) = V c main_call0_v15 (ix2 (row t p) (0 : Fin 1)) := by
  show V c main_call0_v15 (((cfg0.win 3).blk t).view.emb (ix2 p (0 : Fin 1))) = _
  refine congrArg _ (funext fun a => Fin.ext ?_)
  obtain ⟨-, -, -, -, -, -, e30, e31, -⟩ := idx_facts t
  match a with
  | ⟨0, _⟩ => show win0_3.index t (0 : Fin 2) * 4000 + 1 * p.val = 4000 * t.val + p.val; omega
  | ⟨1, _⟩ => show win0_3.index t (1 : Fin 2) * 1 + 1 * 0 = 0; omega

theorem blk_4 (c : Dev nD) (t : Fin cfg0.N) (p : Fin 4000) :
    iblk0 V c 4 t (ix2 p (0 : Fin 1)) = V c main_call0_v17 (ix2 (row t p) (0 : Fin 1)) := by
  show V c main_call0_v17 (((cfg0.win 4).blk t).view.emb (ix2 p (0 : Fin 1))) = _
  refine congrArg _ (funext fun a => Fin.ext ?_)
  obtain ⟨-, -, -, -, -, -, -, -, e40, e41, -⟩ := idx_facts t
  match a with
  | ⟨0, _⟩ => show win0_4.index t (0 : Fin 2) * 4000 + 1 * p.val = 4000 * t.val + p.val; omega
  | ⟨1, _⟩ => show win0_4.index t (1 : Fin 2) * 1 + 1 * 0 = 0; omega

theorem blk_5 (c : Dev nD) (t : Fin cfg0.N) : iblk0 V c 5 t = V c main_call0_v39 := by
  funext y
  show V c main_call0_v39 (((cfg0.win 5).blk t).view.emb y) = V c main_call0_v39 y
  refine congrArg _ (funext fun a => Fin.ext ?_)
  obtain ⟨-, -, -, -, -, -, -, -, -, -, e50, e51, -⟩ := idx_facts t
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem blk_6 (c : Dev nD) (t : Fin cfg0.N) : iblk0 V c 6 t = V c main_call0_v41 := by
  funext y
  show V c main_call0_v41 (((cfg0.win 6).blk t).view.emb y) = V c main_call0_v41 y
  refine congrArg _ (funext fun a => Fin.ext ?_)
  obtain ⟨-, -, -, -, -, -, -, -, -, -, -, -, e60, e61, -⟩ := idx_facts t
  match a with
  | ⟨0, _⟩ => show win0_6.index t (0 : Fin 2) * 128 + 1 * (y 0).val = (y 0).val; omega
  | ⟨1, _⟩ => show win0_6.index t (1 : Fin 2) * 128 + 1 * (y 1).val = (y 1).val; omega

theorem blk_7 (c : Dev nD) (t : Fin cfg0.N) : iblk0 V c 7 t = V c main_call0_v43 := by
  funext y
  show V c main_call0_v43 (((cfg0.win 7).blk t).view.emb y) = V c main_call0_v43 y
  refine congrArg _ (funext fun a => Fin.ext ?_)
  obtain ⟨-, -, -, -, -, -, -, -, -, -, -, -, -, -, e70, e71, -⟩ := idx_facts t
  match a with
  | ⟨0, _⟩ => show win0_7.index t (0 : Fin 2) * 128 + 1 * (y 0).val = (y 0).val; omega
  | ⟨1, _⟩ => show win0_7.index t (1 : Fin 2) * 128 + 1 * (y 1).val = (y 1).val; omega

theorem blk_8 (c : Dev nD) (t : Fin cfg0.N) : iblk0 V c 8 t = V c main_call0_v45 := by
  funext y
  show V c main_call0_v45 (((cfg0.win 8).blk t).view.emb y) = V c main_call0_v45 y
  refine congrArg _ (funext fun a => Fin.ext ?_)
  obtain ⟨-, -, -, -, -, -, -, -, -, -, -, -, -, -, -, -, e80, -⟩ := idx_facts t
  match a with
  | ⟨0, _⟩ => show win0_8.index t (0 : Fin 1) * 128 + 1 * (y 0).val = (y 0).val; omega

/-- The output block's entry (p, q) at point t is the output array's entry (4000·t + p, q). -/
theorem emb_9 (t : Fin cfg0.N) (p : Fin 4000) (q : Fin 128) :
    ((cfg0.win 9).blk t).view.emb (ix2 p q) = (ix2 (row t p) q : S100000x128.Idx) := by
  funext a; apply Fin.ext
  obtain ⟨-, -, -, -, -, -, -, -, -, -, -, -, -, -, -, -, -, e90, e91⟩ := idx_facts t
  match a with
  | ⟨0, _⟩ => show win0_9.index t (0 : Fin 2) * 4000 + 1 * p.val = 4000 * t.val + p.val; omega
  | ⟨1, _⟩ => show win0_9.index t (1 : Fin 2) * 128 + 1 * q.val = q.val; omega

/-! ## What point t writes back -/

theorem flushed_eq (c : Dev nD) (t : Fin cfg0.N) :
    (dat0 V c).flushed 9 t = ((cfg0.win 9).blk t).view.read (Elt Ideal) (G V c) := by
  show (cfg0.win 9).cut (grid0.coords t) ((dat0 V c).after 9 t) = _
  rw [after0_9]
  unfold out0_9
  rw [View.canon_unit_zero hz2]
  simp only [View.ld_unit_zero (S := S4000x128) hz2, View.ld_unit_zero (S := S4000x1) hz2,
    View.ld_unit_zero (S := S128x128) hz2, View.ld_unit_zero (S := S128) hz1]
  funext j
  obtain ⟨p, q, rfl⟩ : ∃ (p : Fin 4000) (q : Fin 128), j = ix2 p q := ⟨j 0, j 1, eq_ix2 j⟩
  refine (Pay.pay0_apply (iblk0 V c 0 t) (iblk0 V c 1 t) (iblk0 V c 2 t) (iblk0 V c 3 t) (iblk0 V c 4 t)
    (iblk0 V c 5 t) (iblk0 V c 6 t) (iblk0 V c 7 t) (iblk0 V c 8 t) p q).trans ?_
  show _ = G V c (((cfg0.win 9).blk t).view.emb (ix2 p q))
  rw [emb_9 t p q]
  show _ = Cert.Layer.entry (V c main_call0_v27) (V c main_call0_v37) (V c main_arg0) (V c main_call0_v15) (V c main_call0_v17)
    (V c main_call0_v39) (V c main_call0_v41) (V c main_call0_v43) (V c main_call0_v45) (row t p) q
  exact Cert.Layer.entry_block (V c main_call0_v27) (V c main_call0_v37) (V c main_arg0) (V c main_call0_v15) (V c main_call0_v17)
    (V c main_call0_v39) (V c main_call0_v41) (V c main_call0_v43) (V c main_call0_v45)
    (iblk0 V c 0 t) (iblk0 V c 1 t) (iblk0 V c 2 t) (iblk0 V c 3 t) (iblk0 V c 4 t)
    (iblk0 V c 5 t) (iblk0 V c 6 t) (iblk0 V c 7 t) (iblk0 V c 8 t) p q (row t p)
    (fun k => blk_0 V c t p k) (fun k => blk_1 V c t p k) (fun k => blk_2 V c t p k) (blk_3 V c t p) (blk_4 V c t p)
    (blk_5 V c t) (blk_6 V c t) (blk_7 V c t) (blk_8 V c t)

/-! ## The 25 row blocks tile the array -/

theorem mem_blk (t : Fin cfg0.N) (i : S100000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_call0_v46).slice (win0_9.rect t)).set ↔ _
  rw [View.set_slice_whole, Rect.mem_set_unit]
  exact Iff.rfl

theorem cover (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have ht : (i 0).val / 4000 < 25 := by omega
  refine ⟨⟨(i 0).val / 4000, ht⟩, flush0_9 _, ?_⟩
  rw [mem_blk]
  obtain ⟨-, -, -, -, -, -, -, -, -, -, -, -, -, -, -, -, -, e90, e91⟩ := idx_facts ⟨(i 0).val / 4000, ht⟩
  have e90' : win0_9.index ⟨(i 0).val / 4000, ht⟩ (0 : Fin 2) = (i 0).val / 4000 := e90
  intro a
  match a with
  | ⟨0, _⟩ =>
    show win0_9.index ⟨(i 0).val / 4000, ht⟩ (0 : Fin 2) * 4000 ≤ (i 0).val ∧ (i 0).val < win0_9.index ⟨(i 0).val / 4000, ht⟩ (0 : Fin 2) * 4000 + 4000
    omega
  | ⟨1, _⟩ =>
    show win0_9.index ⟨(i 0).val / 4000, ht⟩ (1 : Fin 2) * 128 ≤ (i 1).val ∧ (i 1).val < win0_9.index ⟨(i 0).val / 4000, ht⟩ (1 : Fin 2) * 128 + 128
    omega

/-- The output array after the region: the layer of the arrays as the region finds them. -/
theorem final (c : Dev nD) : (dat0 V c).arrAt 9 cfg0.N = G V c :=
  (dat0 V c).arrAt_eq_of_cover 9 (G V c) (fun t _ => flushed_eq V c t) (cover)

end Cert.KernelIdeal.Region0

end
-- ==== Proof.Bound3.lean ====
/-
  Boundaries 2 and 3 — after the first region, and when the second is entered.

  The first region's output array is the layer of what it found, which boundary 1 identifies with the reference's
  stages: so it holds the reference's first layer output. The region leaves every other buffer as it found it. The
  host operations between the regions then aggregate that output (the same gather and scatter-add of the same
  index arrays), re-aggregate the document features, and slice the second layer's weights and bias: each is the
  reference's stage of the same name for its second layer.
-/
import proofs.«140152_j49323404427377_2_alg».proof.Proof.Gen.KernelIdeal.Frame
import proofs.«140152_j49323404427377_2_alg».proof.Proof.Gen.ReferenceIdeal.Read
import proofs.«140152_j49323404427377_2_alg».proof.Proof.LayerSpec
import proofs.«140152_j49323404427377_2_alg».proof.Proof.LayerCongr
import proofs.«140152_j49323404427377_2_alg».proof.Proof.Args
import proofs.«140152_j49323404427377_2_alg».proof.Proof.RefLayers
import proofs.«140152_j49323404427377_2_alg».proof.Proof.LibTypedRef
import Idealize.ShloMosaic.Lib.StableHlo.Run
import Idealize.ShloMosaic.Lib.IdealHost
import proofs.«140152_j49323404427377_2_alg».proof.Proof.Bound1
import proofs.«140152_j49323404427377_2_alg».proof.Proof.Region0

set_option maxRecDepth 16384

noncomputable section

namespace Cert.KernelIdeal.Bound3

open Idealize.ShloMosaic Idealize.ShloMosaic.TcCoe Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg) (c : Dev nD)

open Cert.KernelIdeal.Args

/-! ## After region 0: what its output array holds, and what it left alone -/

theorem W2_arg1 : W2 m ρ c (Proc.devRef .tc main_arg1) = x1 m c :=
  (W2_of_ne m ρ c main_arg1 (by decide)).trans (Bound1.W1_arg1 m ρ c)
theorem W2_arg2 : W2 m ρ c (Proc.devRef .tc main_arg2) = x2 m c :=
  (W2_of_ne m ρ c main_arg2 (by decide)).trans (Bound1.W1_arg2 m ρ c)
theorem W2_arg3 : W2 m ρ c (Proc.devRef .tc main_arg3) = x3 m c :=
  (W2_of_ne m ρ c main_arg3 (by decide)).trans (Bound1.W1_arg3 m ρ c)
theorem W2_arg4 : W2 m ρ c (Proc.devRef .tc main_arg4) = x4 m c :=
  (W2_of_ne m ρ c main_arg4 (by decide)).trans (Bound1.W1_arg4 m ρ c)
theorem W2_arg5 : W2 m ρ c (Proc.devRef .tc main_arg5) = x5 m c :=
  (W2_of_ne m ρ c main_arg5 (by decide)).trans (Bound1.W1_arg5 m ρ c)
theorem W2_arg6 : W2 m ρ c (Proc.devRef .tc main_arg6) = x6 m c :=
  (W2_of_ne m ρ c main_arg6 (by decide)).trans (Bound1.W1_arg6 m ρ c)
theorem W2_arg7 : W2 m ρ c (Proc.devRef .tc main_arg7) = x7 m c :=
  (W2_of_ne m ρ c main_arg7 (by decide)).trans (Bound1.W1_arg7 m ρ c)
theorem W2_arg8 : W2 m ρ c (Proc.devRef .tc main_arg8) = x8 m c :=
  (W2_of_ne m ρ c main_arg8 (by decide)).trans (Bound1.W1_arg8 m ρ c)

theorem W2_v15 : W2 m ρ c (Proc.devRef .tc main_call0_v15) = Cert.Layer.invDeg (val_main_v7 (F := Ideal) (x6 m c)) :=
  (W2_arr m ρ c 3).trans (((dat0 (V1 m ρ) c).arrAt_in 3 rfl _).trans ((A_eq0 (V1 m ρ) c 3).trans (Bound1.W1_v15 m ρ c)))

theorem W2_v17 : W2 m ρ c (Proc.devRef .tc main_call0_v17) = Cert.Layer.invDeg (val_main_v13 (F := Ideal) (x8 m c)) :=
  (W2_arr m ρ c 4).trans (((dat0 (V1 m ρ) c).arrAt_in 4 rfl _).trans ((A_eq0 (V1 m ρ) c 4).trans (Bound1.W1_v17 m ρ c)))

/-- The region's output array: the layer of the nine arrays it found, each of which is the reference's stage of the
    same arguments; so it is the reference's layer output. -/
theorem W2_v46 : W2 m ρ c (Proc.devRef .tc main_call0_v46) = (val_main_v54 (F := Ideal) (x0 m c) (x1 m c) (x2 m c) (x3 m c) (x4 m c) (x5 m c) (x6 m c) (x7 m c) (x8 m c)) :=
  (W2_arr m ρ c 9).trans ((Region0.final (V1 m ρ) c).trans
    ((Cert.Layer.layer_congr (Bound1.W1_v27 m ρ c) (Bound1.W1_v37 m ρ c) (Bound1.W1_arg0 m ρ c) (Bound1.W1_v15 m ρ c) (Bound1.W1_v17 m ρ c) (Bound1.W1_v39 m ρ c) (Bound1.W1_v41 m ρ c) (Bound1.W1_v43 m ρ c) (Bound1.W1_v45 m ρ c)).trans
      (Cert.ReferenceIdeal.RefValue.layer0_eq _ _ _ _ _ _ _ _ _).symm))

/-! ## After the next host stretch: the next region's nine input arrays -/

theorem W3_arg1 : W3 m ρ c (Proc.devRef .tc main_arg1) = x1 m c := by
  show StableHlo.after hostOps1 (W2 m ρ c) (Proc.devRef .tc main_arg1) = _
  after_results_simp
  exact W2_arg1 m ρ c

theorem W3_arg2 : W3 m ρ c (Proc.devRef .tc main_arg2) = x2 m c := by
  show StableHlo.after hostOps1 (W2 m ρ c) (Proc.devRef .tc main_arg2) = _
  after_results_simp
  exact W2_arg2 m ρ c

theorem W3_arg3 : W3 m ρ c (Proc.devRef .tc main_arg3) = x3 m c := by
  show StableHlo.after hostOps1 (W2 m ρ c) (Proc.devRef .tc main_arg3) = _
  after_results_simp
  exact W2_arg3 m ρ c

theorem W3_arg4 : W3 m ρ c (Proc.devRef .tc main_arg4) = x4 m c := by
  show StableHlo.after hostOps1 (W2 m ρ c) (Proc.devRef .tc main_arg4) = _
  after_results_simp
  exact W2_arg4 m ρ c

theorem W3_arg5 : W3 m ρ c (Proc.devRef .tc main_arg5) = x5 m c := by
  show StableHlo.after hostOps1 (W2 m ρ c) (Proc.devRef .tc main_arg5) = _
  after_results_simp
  exact W2_arg5 m ρ c

theorem W3_arg6 : W3 m ρ c (Proc.devRef .tc main_arg6) = x6 m c := by
  show StableHlo.after hostOps1 (W2 m ρ c) (Proc.devRef .tc main_arg6) = _
  after_results_simp
  exact W2_arg6 m ρ c

theorem W3_arg7 : W3 m ρ c (Proc.devRef .tc main_arg7) = x7 m c := by
  show StableHlo.after hostOps1 (W2 m ρ c) (Proc.devRef .tc main_arg7) = _
  after_results_simp
  exact W2_arg7 m ρ c

theorem W3_arg8 : W3 m ρ c (Proc.devRef .tc main_arg8) = x8 m c := by
  show StableHlo.after hostOps1 (W2 m ρ c) (Proc.devRef .tc main_arg8) = _
  after_results_simp
  exact W2_arg8 m ρ c

theorem W3_v56 : W3 m ρ c (Proc.devRef .tc main_call0_v56) = (val_main_v64 (F := Ideal) (x0 m c) (x1 m c) (x2 m c) (x3 m c) (x4 m c) (x5 m c) (x6 m c) (x7 m c) (x8 m c)) := by
  show StableHlo.after hostOps1 (W2 m ρ c) (Proc.devRef .tc main_call0_v56) = _
  after_results_simp
  simp only [Cert.Lib.TypedRef.ofBuf_toBuf_id]
  rw [W2_v46 m ρ c, W2_arg5 m ρ c, W2_arg6 m ρ c]
  refine eq_of_heq (Cert.Lib.TypedRef.toBuf_heq _ _ _ ?_)
  rfl

theorem W3_v66 : W3 m ρ c (Proc.devRef .tc main_call0_v66) = (val_main_v76 (F := Ideal) (x1 m c) (x7 m c) (x8 m c)) := by
  show StableHlo.after hostOps1 (W2 m ρ c) (Proc.devRef .tc main_call0_v66) = _
  after_results_simp
  simp only [Cert.Lib.TypedRef.ofBuf_toBuf_id]
  rw [W2_arg1 m ρ c, W2_arg7 m ρ c, W2_arg8 m ρ c]
  refine eq_of_heq (Cert.Lib.TypedRef.toBuf_heq _ _ _ ?_)
  rfl

theorem W3_v46 : W3 m ρ c (Proc.devRef .tc main_call0_v46) = (val_main_v54 (F := Ideal) (x0 m c) (x1 m c) (x2 m c) (x3 m c) (x4 m c) (x5 m c) (x6 m c) (x7 m c) (x8 m c)) := by
  show StableHlo.after hostOps1 (W2 m ρ c) (Proc.devRef .tc main_call0_v46) = _
  after_results_simp
  exact W2_v46 m ρ c

theorem W3_v15 : W3 m ρ c (Proc.devRef .tc main_call0_v15) = Cert.Layer.invDeg (val_main_v7 (F := Ideal) (x6 m c)) := by
  show StableHlo.after hostOps1 (W2 m ρ c) (Proc.devRef .tc main_call0_v15) = _
  after_results_simp
  exact W2_v15 m ρ c

theorem W3_v17 : W3 m ρ c (Proc.devRef .tc main_call0_v17) = Cert.Layer.invDeg (val_main_v13 (F := Ideal) (x8 m c)) := by
  show StableHlo.after hostOps1 (W2 m ρ c) (Proc.devRef .tc main_call0_v17) = _
  after_results_simp
  exact W2_v17 m ρ c

theorem W3_v68 : W3 m ρ c (Proc.devRef .tc main_call0_v68) = (val_main_v80 (F := Ideal) (x2 m c)) := by
  show StableHlo.after hostOps1 (W2 m ρ c) (Proc.devRef .tc main_call0_v68) = _
  after_results_simp
  rw [W2_arg2 m ρ c]
  rfl

theorem W3_v70 : W3 m ρ c (Proc.devRef .tc main_call0_v70) = (val_main_v83 (F := Ideal) (x2 m c)) := by
  show StableHlo.after hostOps1 (W2 m ρ c) (Proc.devRef .tc main_call0_v70) = _
  after_results_simp
  rw [W2_arg2 m ρ c]
  rfl

theorem W3_v72 : W3 m ρ c (Proc.devRef .tc main_call0_v72) = (val_main_v87 (F := Ideal) (x3 m c)) := by
  show StableHlo.after hostOps1 (W2 m ρ c) (Proc.devRef .tc main_call0_v72) = _
  after_results_simp
  rw [W2_arg3 m ρ c]
  rfl

theorem W3_v74 : W3 m ρ c (Proc.devRef .tc main_call0_v74) = (val_main_v91 (F := Ideal) (x4 m c)) := by
  show StableHlo.after hostOps1 (W2 m ρ c) (Proc.devRef .tc main_call0_v74) = _
  after_results_simp
  rw [W2_arg4 m ρ c]
  rfl

end Cert.KernelIdeal.Bound3

end
-- ==== Proof.Region1.lean ====
/-
  Region 1: the array the layer kernel's second call leaves.

  The grid has 25 points; point t stages rows 4000·t … 4000·t + 3999 of the two aggregated arrays, of the node
  features and of the two reciprocal-degree columns, the three weight matrices and the bias whole, and writes back
  rows 4000·t … 4000·t + 3999 of the output. So what point t writes back is the layer (LayerSpec) of the arrays the
  region finds, restricted to those rows; the 25 row blocks tile the 100000 rows; hence the output array ends
  holding the layer of the arrays as the region finds them.
-/
import proofs.«140152_j49323404427377_2_alg».proof.Proof.Gen.KernelIdeal.Frame
import proofs.«140152_j49323404427377_2_alg».proof.Proof.Pay

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 25 grid points: the row-blocked windows are at block (t, 0), the whole ones at
    block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

theorem row_lt (t : Fin cfg1.N) (p : Fin 4000) : 4000 * t.val + p.val < 100000 := by
  have ht : t.val < 25 := t.isLt
  have hp := p.isLt
  omega

/-- The array's row that row p of point t's block stands for. -/
abbrev row (t : Fin cfg1.N) (p : Fin 4000) : Fin 100000 := ⟨4000 * t.val + p.val, row_lt t p⟩

/-- The layer of the arrays as the region finds them. -/
abbrev G (c : Dev nD) : S100000x128.Idx → EReal :=
  Cert.Layer.layer (V c main_call0_v56) (V c main_call0_v66) (V c main_call0_v46) (V c main_call0_v15) (V c main_call0_v17)
    (V c main_call0_v68) (V c main_call0_v70) (V c main_call0_v72) (V c main_call0_v74)

/-! ## Each window's block at point t, read off its array -/

theorem blk_0 (c : Dev nD) (t : Fin cfg1.N) (p : Fin 4000) (k : Fin 128) :
    iblk1 V c 0 t (ix2 p k) = V c main_call0_v56 (ix2 (row t p) k) := by
  show V c main_call0_v56 (((cfg1.win 0).blk t).view.emb (ix2 p k)) = _
  refine congrArg _ (funext fun a => Fin.ext ?_)
  obtain ⟨e00, e01, -⟩ := idx_facts t
  match a with
  | ⟨0, _⟩ => show win1_0.index t (0 : Fin 2) * 4000 + 1 * p.val = 4000 * t.val + p.val; omega
  | ⟨1, _⟩ => show win1_0.index t (1 : Fin 2) * 128 + 1 * k.val = k.val; omega

theorem blk_1 (c : Dev nD) (t : Fin cfg1.N) (p : Fin 4000) (k : Fin 128) :
    iblk1 V c 1 t (ix2 p k) = V c main_call0_v66 (ix2 (row t p) k) := by
  show V c main_call0_v66 (((cfg1.win 1).blk t).view.emb (ix2 p k)) = _
  refine congrArg _ (funext fun a => Fin.ext ?_)
  obtain ⟨-, -, e10, e11, -⟩ := idx_facts t
  match a with
  | ⟨0, _⟩ => show win1_1.index t (0 : Fin 2) * 4000 + 1 * p.val = 4000 * t.val + p.val; omega
  | ⟨1, _⟩ => show win1_1.index t (1 : Fin 2) * 128 + 1 * k.val = k.val; omega

theorem blk_2 (c : Dev nD) (t : Fin cfg1.N) (p : Fin 4000) (k : Fin 128) :
    iblk1 V c 2 t (ix2 p k) = V c main_call0_v46 (ix2 (row t p) k) := by
  show V c main_call0_v46 (((cfg1.win 2).blk t).view.emb (ix2 p k)) = _
  refine congrArg _ (funext fun a => Fin.ext ?_)
  obtain ⟨-, -, -, -, e20, e21, -⟩ := idx_facts t
  match a with
  | ⟨0, _⟩ => show win1_2.index t (0 : Fin 2) * 4000 + 1 * p.val = 4000 * t.val + p.val; omega
  | ⟨1, _⟩ => show win1_2.index t (1 : Fin 2) * 128 + 1 * k.val = k.val; omega

theorem blk_3 (c : Dev nD) (t : Fin cfg1.N) (p : Fin 4000) :
    iblk1 V c 3 t (ix2 p (0 : Fin 1)) = V c main_call0_v15 (ix2 (row t p) (0 : Fin 1)) := by
  show V c main_call0_v15 (((cfg1.win 3).blk t).view.emb (ix2 p (0 : Fin 1))) = _
  refine congrArg _ (funext fun a => Fin.ext ?_)
  obtain ⟨-, -, -, -, -, -, e30, e31, -⟩ := idx_facts t
  match a with
  | ⟨0, _⟩ => show win1_3.index t (0 : Fin 2) * 4000 + 1 * p.val = 4000 * t.val + p.val; omega
  | ⟨1, _⟩ => show win1_3.index t (1 : Fin 2) * 1 + 1 * 0 = 0; omega

theorem blk_4 (c : Dev nD) (t : Fin cfg1.N) (p : Fin 4000) :
    iblk1 V c 4 t (ix2 p (0 : Fin 1)) = V c main_call0_v17 (ix2 (row t p) (0 : Fin 1)) := by
  show V c main_call0_v17 (((cfg1.win 4).blk t).view.emb (ix2 p (0 : Fin 1))) = _
  refine congrArg _ (funext fun a => Fin.ext ?_)
  obtain ⟨-, -, -, -, -, -, -, -, e40, e41, -⟩ := idx_facts t
  match a with
  | ⟨0, _⟩ => show win1_4.index t (0 : Fin 2) * 4000 + 1 * p.val = 4000 * t.val + p.val; omega
  | ⟨1, _⟩ => show win1_4.index t (1 : Fin 2) * 1 + 1 * 0 = 0; omega

theorem blk_5 (c : Dev nD) (t : Fin cfg1.N) : iblk1 V c 5 t = V c main_call0_v68 := by
  funext y
  show V c main_call0_v68 (((cfg1.win 5).blk t).view.emb y) = V c main_call0_v68 y
  refine congrArg _ (funext fun a => Fin.ext ?_)
  obtain ⟨-, -, -, -, -, -, -, -, -, -, e50, e51, -⟩ := idx_facts t
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem blk_6 (c : Dev nD) (t : Fin cfg1.N) : iblk1 V c 6 t = V c main_call0_v70 := by
  funext y
  show V c main_call0_v70 (((cfg1.win 6).blk t).view.emb y) = V c main_call0_v70 y
  refine congrArg _ (funext fun a => Fin.ext ?_)
  obtain ⟨-, -, -, -, -, -, -, -, -, -, -, -, e60, e61, -⟩ := idx_facts t
  match a with
  | ⟨0, _⟩ => show win1_6.index t (0 : Fin 2) * 128 + 1 * (y 0).val = (y 0).val; omega
  | ⟨1, _⟩ => show win1_6.index t (1 : Fin 2) * 128 + 1 * (y 1).val = (y 1).val; omega

theorem blk_7 (c : Dev nD) (t : Fin cfg1.N) : iblk1 V c 7 t = V c main_call0_v72 := by
  funext y
  show V c main_call0_v72 (((cfg1.win 7).blk t).view.emb y) = V c main_call0_v72 y
  refine congrArg _ (funext fun a => Fin.ext ?_)
  obtain ⟨-, -, -, -, -, -, -, -, -, -, -, -, -, -, e70, e71, -⟩ := idx_facts t
  match a with
  | ⟨0, _⟩ => show win1_7.index t (0 : Fin 2) * 128 + 1 * (y 0).val = (y 0).val; omega
  | ⟨1, _⟩ => show win1_7.index t (1 : Fin 2) * 128 + 1 * (y 1).val = (y 1).val; omega

theorem blk_8 (c : Dev nD) (t : Fin cfg1.N) : iblk1 V c 8 t = V c main_call0_v74 := by
  funext y
  show V c main_call0_v74 (((cfg1.win 8).blk t).view.emb y) = V c main_call0_v74 y
  refine congrArg _ (funext fun a => Fin.ext ?_)
  obtain ⟨-, -, -, -, -, -, -, -, -, -, -, -, -, -, -, -, e80, -⟩ := idx_facts t
  match a with
  | ⟨0, _⟩ => show win1_8.index t (0 : Fin 1) * 128 + 1 * (y 0).val = (y 0).val; omega

/-- The output block's entry (p, q) at point t is the output array's entry (4000·t + p, q). -/
theorem emb_9 (t : Fin cfg1.N) (p : Fin 4000) (q : Fin 128) :
    ((cfg1.win 9).blk t).view.emb (ix2 p q) = (ix2 (row t p) q : S100000x128.Idx) := by
  funext a; apply Fin.ext
  obtain ⟨-, -, -, -, -, -, -, -, -, -, -, -, -, -, -, -, -, e90, e91⟩ := idx_facts t
  match a with
  | ⟨0, _⟩ => show win1_9.index t (0 : Fin 2) * 4000 + 1 * p.val = 4000 * t.val + p.val; omega
  | ⟨1, _⟩ => show win1_9.index t (1 : Fin 2) * 128 + 1 * q.val = q.val; omega

/-! ## What point t writes back -/

theorem flushed_eq (c : Dev nD) (t : Fin cfg1.N) :
    (dat1 V c).flushed 9 t = ((cfg1.win 9).blk t).view.read (Elt Ideal) (G V c) := by
  show (cfg1.win 9).cut (grid1.coords t) ((dat1 V c).after 9 t) = _
  rw [after1_9]
  unfold out1_9
  rw [View.canon_unit_zero hz2]
  simp only [View.ld_unit_zero (S := S4000x128) hz2, View.ld_unit_zero (S := S4000x1) hz2,
    View.ld_unit_zero (S := S128x128) hz2, View.ld_unit_zero (S := S128) hz1]
  funext j
  obtain ⟨p, q, rfl⟩ : ∃ (p : Fin 4000) (q : Fin 128), j = ix2 p q := ⟨j 0, j 1, eq_ix2 j⟩
  refine (Pay.pay1_apply (iblk1 V c 0 t) (iblk1 V c 1 t) (iblk1 V c 2 t) (iblk1 V c 3 t) (iblk1 V c 4 t)
    (iblk1 V c 5 t) (iblk1 V c 6 t) (iblk1 V c 7 t) (iblk1 V c 8 t) p q).trans ?_
  show _ = G V c (((cfg1.win 9).blk t).view.emb (ix2 p q))
  rw [emb_9 t p q]
  show _ = Cert.Layer.entry (V c main_call0_v56) (V c main_call0_v66) (V c main_call0_v46) (V c main_call0_v15) (V c main_call0_v17)
    (V c main_call0_v68) (V c main_call0_v70) (V c main_call0_v72) (V c main_call0_v74) (row t p) q
  exact Cert.Layer.entry_block (V c main_call0_v56) (V c main_call0_v66) (V c main_call0_v46) (V c main_call0_v15) (V c main_call0_v17)
    (V c main_call0_v68) (V c main_call0_v70) (V c main_call0_v72) (V c main_call0_v74)
    (iblk1 V c 0 t) (iblk1 V c 1 t) (iblk1 V c 2 t) (iblk1 V c 3 t) (iblk1 V c 4 t)
    (iblk1 V c 5 t) (iblk1 V c 6 t) (iblk1 V c 7 t) (iblk1 V c 8 t) p q (row t p)
    (fun k => blk_0 V c t p k) (fun k => blk_1 V c t p k) (fun k => blk_2 V c t p k) (blk_3 V c t p) (blk_4 V c t p)
    (blk_5 V c t) (blk_6 V c t) (blk_7 V c t) (blk_8 V c t)

/-! ## The 25 row blocks tile the array -/

theorem mem_blk (t : Fin cfg1.N) (i : S100000x128.Idx) :
    i ∈ ((cfg1.win 9).blk t).view.set ↔ ∀ a : Fin 2, win1_9.index t a * S4000x128.size a ≤ (i a).val ∧ (i a).val < win1_9.index t a * S4000x128.size a + S4000x128.size a := by
  show i ∈ ((View.whole main_call0_v75).slice (win1_9.rect t)).set ↔ _
  rw [View.set_slice_whole, Rect.mem_set_unit]
  exact Iff.rfl

theorem cover (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  have ht : (i 0).val / 4000 < 25 := by omega
  refine ⟨⟨(i 0).val / 4000, ht⟩, flush1_9 _, ?_⟩
  rw [mem_blk]
  obtain ⟨-, -, -, -, -, -, -, -, -, -, -, -, -, -, -, -, -, e90, e91⟩ := idx_facts ⟨(i 0).val / 4000, ht⟩
  have e90' : win1_9.index ⟨(i 0).val / 4000, ht⟩ (0 : Fin 2) = (i 0).val / 4000 := e90
  intro a
  match a with
  | ⟨0, _⟩ =>
    show win1_9.index ⟨(i 0).val / 4000, ht⟩ (0 : Fin 2) * 4000 ≤ (i 0).val ∧ (i 0).val < win1_9.index ⟨(i 0).val / 4000, ht⟩ (0 : Fin 2) * 4000 + 4000
    omega
  | ⟨1, _⟩ =>
    show win1_9.index ⟨(i 0).val / 4000, ht⟩ (1 : Fin 2) * 128 ≤ (i 1).val ∧ (i 1).val < win1_9.index ⟨(i 0).val / 4000, ht⟩ (1 : Fin 2) * 128 + 128
    omega

/-- The output array after the region: the layer of the arrays as the region finds them. -/
theorem final (c : Dev nD) : (dat1 V c).arrAt 9 cfg1.N = G V c :=
  (dat1 V c).arrAt_eq_of_cover 9 (G V c) (fun t _ => flushed_eq V c t) (cover)

end Cert.KernelIdeal.Region1

end
-- ==== Proof.Bound5.lean ====
/-
  Boundaries 4 and 5 — after the second region, and when the third is entered: the same step once more. The second
  region's output array holds the reference's second layer output; the host operations before the third region
  aggregate it and slice the third layer's weights and bias.
-/
import proofs.«140152_j49323404427377_2_alg».proof.Proof.Gen.KernelIdeal.Frame
import proofs.«140152_j49323404427377_2_alg».proof.Proof.Gen.ReferenceIdeal.Read
import proofs.«140152_j49323404427377_2_alg».proof.Proof.LayerSpec
import proofs.«140152_j49323404427377_2_alg».proof.Proof.LayerCongr
import proofs.«140152_j49323404427377_2_alg».proof.Proof.Args
import proofs.«140152_j49323404427377_2_alg».proof.Proof.RefLayers
import proofs.«140152_j49323404427377_2_alg».proof.Proof.LibTypedRef
import Idealize.ShloMosaic.Lib.StableHlo.Run
import Idealize.ShloMosaic.Lib.IdealHost
import proofs.«140152_j49323404427377_2_alg».proof.Proof.Bound3
import proofs.«140152_j49323404427377_2_alg».proof.Proof.Region1

set_option maxRecDepth 16384

noncomputable section

namespace Cert.KernelIdeal.Bound5

open Idealize.ShloMosaic Idealize.ShloMosaic.TcCoe Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg) (c : Dev nD)

open Cert.KernelIdeal.Args

/-! ## After region 1: what its output array holds, and what it left alone -/

theorem W4_arg1 : W4 m ρ c (Proc.devRef .tc main_arg1) = x1 m c :=
  (W4_of_ne m ρ c main_arg1 (by decide)).trans (Bound3.W3_arg1 m ρ c)
theorem W4_arg2 : W4 m ρ c (Proc.devRef .tc main_arg2) = x2 m c :=
  (W4_of_ne m ρ c main_arg2 (by decide)).trans (Bound3.W3_arg2 m ρ c)
theorem W4_arg3 : W4 m ρ c (Proc.devRef .tc main_arg3) = x3 m c :=
  (W4_of_ne m ρ c main_arg3 (by decide)).trans (Bound3.W3_arg3 m ρ c)
theorem W4_arg4 : W4 m ρ c (Proc.devRef .tc main_arg4) = x4 m c :=
  (W4_of_ne m ρ c main_arg4 (by decide)).trans (Bound3.W3_arg4 m ρ c)
theorem W4_arg5 : W4 m ρ c (Proc.devRef .tc main_arg5) = x5 m c :=
  (W4_of_ne m ρ c main_arg5 (by decide)).trans (Bound3.W3_arg5 m ρ c)
theorem W4_arg6 : W4 m ρ c (Proc.devRef .tc main_arg6) = x6 m c :=
  (W4_of_ne m ρ c main_arg6 (by decide)).trans (Bound3.W3_arg6 m ρ c)
theorem W4_arg7 : W4 m ρ c (Proc.devRef .tc main_arg7) = x7 m c :=
  (W4_of_ne m ρ c main_arg7 (by decide)).trans (Bound3.W3_arg7 m ρ c)
theorem W4_arg8 : W4 m ρ c (Proc.devRef .tc main_arg8) = x8 m c :=
  (W4_of_ne m ρ c main_arg8 (by decide)).trans (Bound3.W3_arg8 m ρ c)

theorem W4_v15 : W4 m ρ c (Proc.devRef .tc main_call0_v15) = Cert.Layer.invDeg (val_main_v7 (F := Ideal) (x6 m c)) :=
  (W4_arr m ρ c 3).trans (((dat1 (V3 m ρ) c).arrAt_in 3 rfl _).trans ((A_eq1 (V3 m ρ) c 3).trans (Bound3.W3_v15 m ρ c)))

theorem W4_v17 : W4 m ρ c (Proc.devRef .tc main_call0_v17) = Cert.Layer.invDeg (val_main_v13 (F := Ideal) (x8 m c)) :=
  (W4_arr m ρ c 4).trans (((dat1 (V3 m ρ) c).arrAt_in 4 rfl _).trans ((A_eq1 (V3 m ρ) c 4).trans (Bound3.W3_v17 m ρ c)))

/-- The region's output array: the layer of the nine arrays it found, each of which is the reference's stage of the
    same arguments; so it is the reference's layer output. -/
theorem W4_v75 : W4 m ρ c (Proc.devRef .tc main_call0_v75) = (val_main_v95 (F := Ideal) (x0 m c) (x1 m c) (x2 m c) (x3 m c) (x4 m c) (x5 m c) (x6 m c) (x7 m c) (x8 m c)) :=
  (W4_arr m ρ c 9).trans ((Region1.final (V3 m ρ) c).trans
    ((Cert.Layer.layer_congr (Bound3.W3_v56 m ρ c) (Bound3.W3_v66 m ρ c) (Bound3.W3_v46 m ρ c) (Bound3.W3_v15 m ρ c) (Bound3.W3_v17 m ρ c) (Bound3.W3_v68 m ρ c) (Bound3.W3_v70 m ρ c) (Bound3.W3_v72 m ρ c) (Bound3.W3_v74 m ρ c)).trans
      (Cert.ReferenceIdeal.RefValue.layer1_eq _ _ _ _ _ _ _ _ _).symm))

/-! ## After the next host stretch: the next region's nine input arrays -/

theorem W5_arg1 : W5 m ρ c (Proc.devRef .tc main_arg1) = x1 m c := by
  show StableHlo.after hostOps2 (W4 m ρ c) (Proc.devRef .tc main_arg1) = _
  after_results_simp
  exact W4_arg1 m ρ c

theorem W5_arg2 : W5 m ρ c (Proc.devRef .tc main_arg2) = x2 m c := by
  show StableHlo.after hostOps2 (W4 m ρ c) (Proc.devRef .tc main_arg2) = _
  after_results_simp
  exact W4_arg2 m ρ c

theorem W5_arg3 : W5 m ρ c (Proc.devRef .tc main_arg3) = x3 m c := by
  show StableHlo.after hostOps2 (W4 m ρ c) (Proc.devRef .tc main_arg3) = _
  after_results_simp
  exact W4_arg3 m ρ c

theorem W5_arg4 : W5 m ρ c (Proc.devRef .tc main_arg4) = x4 m c := by
  show StableHlo.after hostOps2 (W4 m ρ c) (Proc.devRef .tc main_arg4) = _
  after_results_simp
  exact W4_arg4 m ρ c

theorem W5_arg5 : W5 m ρ c (Proc.devRef .tc main_arg5) = x5 m c := by
  show StableHlo.after hostOps2 (W4 m ρ c) (Proc.devRef .tc main_arg5) = _
  after_results_simp
  exact W4_arg5 m ρ c

theorem W5_arg6 : W5 m ρ c (Proc.devRef .tc main_arg6) = x6 m c := by
  show StableHlo.after hostOps2 (W4 m ρ c) (Proc.devRef .tc main_arg6) = _
  after_results_simp
  exact W4_arg6 m ρ c

theorem W5_arg7 : W5 m ρ c (Proc.devRef .tc main_arg7) = x7 m c := by
  show StableHlo.after hostOps2 (W4 m ρ c) (Proc.devRef .tc main_arg7) = _
  after_results_simp
  exact W4_arg7 m ρ c

theorem W5_arg8 : W5 m ρ c (Proc.devRef .tc main_arg8) = x8 m c := by
  show StableHlo.after hostOps2 (W4 m ρ c) (Proc.devRef .tc main_arg8) = _
  after_results_simp
  exact W4_arg8 m ρ c

theorem W5_v85 : W5 m ρ c (Proc.devRef .tc main_call0_v85) = (val_main_v105 (F := Ideal) (x0 m c) (x1 m c) (x2 m c) (x3 m c) (x4 m c) (x5 m c) (x6 m c) (x7 m c) (x8 m c)) := by
  show StableHlo.after hostOps2 (W4 m ρ c) (Proc.devRef .tc main_call0_v85) = _
  after_results_simp
  simp only [Cert.Lib.TypedRef.ofBuf_toBuf_id]
  rw [W4_v75 m ρ c, W4_arg5 m ρ c, W4_arg6 m ρ c]
  refine eq_of_heq (Cert.Lib.TypedRef.toBuf_heq _ _ _ ?_)
  rfl

theorem W5_v95 : W5 m ρ c (Proc.devRef .tc main_call0_v95) = (val_main_v117 (F := Ideal) (x1 m c) (x7 m c) (x8 m c)) := by
  show StableHlo.after hostOps2 (W4 m ρ c) (Proc.devRef .tc main_call0_v95) = _
  after_results_simp
  simp only [Cert.Lib.TypedRef.ofBuf_toBuf_id]
  rw [W4_arg1 m ρ c, W4_arg7 m ρ c, W4_arg8 m ρ c]
  refine eq_of_heq (Cert.Lib.TypedRef.toBuf_heq _ _ _ ?_)
  rfl

theorem W5_v75 : W5 m ρ c (Proc.devRef .tc main_call0_v75) = (val_main_v95 (F := Ideal) (x0 m c) (x1 m c) (x2 m c) (x3 m c) (x4 m c) (x5 m c) (x6 m c) (x7 m c) (x8 m c)) := by
  show StableHlo.after hostOps2 (W4 m ρ c) (Proc.devRef .tc main_call0_v75) = _
  after_results_simp
  exact W4_v75 m ρ c

theorem W5_v15 : W5 m ρ c (Proc.devRef .tc main_call0_v15) = Cert.Layer.invDeg (val_main_v7 (F := Ideal) (x6 m c)) := by
  show StableHlo.after hostOps2 (W4 m ρ c) (Proc.devRef .tc main_call0_v15) = _
  after_results_simp
  exact W4_v15 m ρ c

theorem W5_v17 : W5 m ρ c (Proc.devRef .tc main_call0_v17) = Cert.Layer.invDeg (val_main_v13 (F := Ideal) (x8 m c)) := by
  show StableHlo.after hostOps2 (W4 m ρ c) (Proc.devRef .tc main_call0_v17) = _
  after_results_simp
  exact W4_v17 m ρ c

theorem W5_v97 : W5 m ρ c (Proc.devRef .tc main_call0_v97) = (val_main_v121 (F := Ideal) (x2 m c)) := by
  show StableHlo.after hostOps2 (W4 m ρ c) (Proc.devRef .tc main_call0_v97) = _
  after_results_simp
  rw [W4_arg2 m ρ c]
  rfl

theorem W5_v99 : W5 m ρ c (Proc.devRef .tc main_call0_v99) = (val_main_v124 (F := Ideal) (x2 m c)) := by
  show StableHlo.after hostOps2 (W4 m ρ c) (Proc.devRef .tc main_call0_v99) = _
  after_results_simp
  rw [W4_arg2 m ρ c]
  rfl

theorem W5_v101 : W5 m ρ c (Proc.devRef .tc main_call0_v101) = (val_main_v128 (F := Ideal) (x3 m c)) := by
  show StableHlo.after hostOps2 (W4 m ρ c) (Proc.devRef .tc main_call0_v101) = _
  after_results_simp
  rw [W4_arg3 m ρ c]
  rfl

theorem W5_v103 : W5 m ρ c (Proc.devRef .tc main_call0_v103) = (val_main_v132 (F := Ideal) (x4 m c)) := by
  show StableHlo.after hostOps2 (W4 m ρ c) (Proc.devRef .tc main_call0_v103) = _
  after_results_simp
  rw [W4_arg4 m ρ c]
  rfl

end Cert.KernelIdeal.Bound5

end
-- ==== Proof.Region2.lean ====
/-
  Region 2: the array the layer kernel's third call leaves.

  The grid has 25 points; point t stages rows 4000·t … 4000·t + 3999 of the two aggregated arrays, of the node
  features and of the two reciprocal-degree columns, the three weight matrices and the bias whole, and writes back
  rows 4000·t … 4000·t + 3999 of the output. So what point t writes back is the layer (LayerSpec) of the arrays the
  region finds, restricted to those rows; the 25 row blocks tile the 100000 rows; hence the output array ends
  holding the layer of the arrays as the region finds them.
-/
import proofs.«140152_j49323404427377_2_alg».proof.Proof.Gen.KernelIdeal.Frame
import proofs.«140152_j49323404427377_2_alg».proof.Proof.Pay

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 25 grid points: the row-blocked windows are at block (t, 0), the whole ones at
    block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 1) = 0
    ∧ win2_9.index t (0 : Fin 2) = t.val ∧ win2_9.index t (1 : Fin 2) = 0 :=
  (by decide +kernel : ∀ t : Fin grid2.N, _)

theorem row_lt (t : Fin cfg2.N) (p : Fin 4000) : 4000 * t.val + p.val < 100000 := by
  have ht : t.val < 25 := t.isLt
  have hp := p.isLt
  omega

/-- The array's row that row p of point t's block stands for. -/
abbrev row (t : Fin cfg2.N) (p : Fin 4000) : Fin 100000 := ⟨4000 * t.val + p.val, row_lt t p⟩

/-- The layer of the arrays as the region finds them. -/
abbrev G (c : Dev nD) : S100000x128.Idx → EReal :=
  Cert.Layer.layer (V c main_call0_v85) (V c main_call0_v95) (V c main_call0_v75) (V c main_call0_v15) (V c main_call0_v17)
    (V c main_call0_v97) (V c main_call0_v99) (V c main_call0_v101) (V c main_call0_v103)

/-! ## Each window's block at point t, read off its array -/

theorem blk_0 (c : Dev nD) (t : Fin cfg2.N) (p : Fin 4000) (k : Fin 128) :
    iblk2 V c 0 t (ix2 p k) = V c main_call0_v85 (ix2 (row t p) k) := by
  show V c main_call0_v85 (((cfg2.win 0).blk t).view.emb (ix2 p k)) = _
  refine congrArg _ (funext fun a => Fin.ext ?_)
  obtain ⟨e00, e01, -⟩ := idx_facts t
  match a with
  | ⟨0, _⟩ => show win2_0.index t (0 : Fin 2) * 4000 + 1 * p.val = 4000 * t.val + p.val; omega
  | ⟨1, _⟩ => show win2_0.index t (1 : Fin 2) * 128 + 1 * k.val = k.val; omega

theorem blk_1 (c : Dev nD) (t : Fin cfg2.N) (p : Fin 4000) (k : Fin 128) :
    iblk2 V c 1 t (ix2 p k) = V c main_call0_v95 (ix2 (row t p) k) := by
  show V c main_call0_v95 (((cfg2.win 1).blk t).view.emb (ix2 p k)) = _
  refine congrArg _ (funext fun a => Fin.ext ?_)
  obtain ⟨-, -, e10, e11, -⟩ := idx_facts t
  match a with
  | ⟨0, _⟩ => show win2_1.index t (0 : Fin 2) * 4000 + 1 * p.val = 4000 * t.val + p.val; omega
  | ⟨1, _⟩ => show win2_1.index t (1 : Fin 2) * 128 + 1 * k.val = k.val; omega

theorem blk_2 (c : Dev nD) (t : Fin cfg2.N) (p : Fin 4000) (k : Fin 128) :
    iblk2 V c 2 t (ix2 p k) = V c main_call0_v75 (ix2 (row t p) k) := by
  show V c main_call0_v75 (((cfg2.win 2).blk t).view.emb (ix2 p k)) = _
  refine congrArg _ (funext fun a => Fin.ext ?_)
  obtain ⟨-, -, -, -, e20, e21, -⟩ := idx_facts t
  match a with
  | ⟨0, _⟩ => show win2_2.index t (0 : Fin 2) * 4000 + 1 * p.val = 4000 * t.val + p.val; omega
  | ⟨1, _⟩ => show win2_2.index t (1 : Fin 2) * 128 + 1 * k.val = k.val; omega

theorem blk_3 (c : Dev nD) (t : Fin cfg2.N) (p : Fin 4000) :
    iblk2 V c 3 t (ix2 p (0 : Fin 1)) = V c main_call0_v15 (ix2 (row t p) (0 : Fin 1)) := by
  show V c main_call0_v15 (((cfg2.win 3).blk t).view.emb (ix2 p (0 : Fin 1))) = _
  refine congrArg _ (funext fun a => Fin.ext ?_)
  obtain ⟨-, -, -, -, -, -, e30, e31, -⟩ := idx_facts t
  match a with
  | ⟨0, _⟩ => show win2_3.index t (0 : Fin 2) * 4000 + 1 * p.val = 4000 * t.val + p.val; omega
  | ⟨1, _⟩ => show win2_3.index t (1 : Fin 2) * 1 + 1 * 0 = 0; omega

theorem blk_4 (c : Dev nD) (t : Fin cfg2.N) (p : Fin 4000) :
    iblk2 V c 4 t (ix2 p (0 : Fin 1)) = V c main_call0_v17 (ix2 (row t p) (0 : Fin 1)) := by
  show V c main_call0_v17 (((cfg2.win 4).blk t).view.emb (ix2 p (0 : Fin 1))) = _
  refine congrArg _ (funext fun a => Fin.ext ?_)
  obtain ⟨-, -, -, -, -, -, -, -, e40, e41, -⟩ := idx_facts t
  match a with
  | ⟨0, _⟩ => show win2_4.index t (0 : Fin 2) * 4000 + 1 * p.val = 4000 * t.val + p.val; omega
  | ⟨1, _⟩ => show win2_4.index t (1 : Fin 2) * 1 + 1 * 0 = 0; omega

theorem blk_5 (c : Dev nD) (t : Fin cfg2.N) : iblk2 V c 5 t = V c main_call0_v97 := by
  funext y
  show V c main_call0_v97 (((cfg2.win 5).blk t).view.emb y) = V c main_call0_v97 y
  refine congrArg _ (funext fun a => Fin.ext ?_)
  obtain ⟨-, -, -, -, -, -, -, -, -, -, e50, e51, -⟩ := idx_facts t
  match a with
  | ⟨0, _⟩ => show win2_5.index t (0 : Fin 2) * 128 + 1 * (y 0).val = (y 0).val; omega
  | ⟨1, _⟩ => show win2_5.index t (1 : Fin 2) * 128 + 1 * (y 1).val = (y 1).val; omega

theorem blk_6 (c : Dev nD) (t : Fin cfg2.N) : iblk2 V c 6 t = V c main_call0_v99 := by
  funext y
  show V c main_call0_v99 (((cfg2.win 6).blk t).view.emb y) = V c main_call0_v99 y
  refine congrArg _ (funext fun a => Fin.ext ?_)
  obtain ⟨-, -, -, -, -, -, -, -, -, -, -, -, e60, e61, -⟩ := idx_facts t
  match a with
  | ⟨0, _⟩ => show win2_6.index t (0 : Fin 2) * 128 + 1 * (y 0).val = (y 0).val; omega
  | ⟨1, _⟩ => show win2_6.index t (1 : Fin 2) * 128 + 1 * (y 1).val = (y 1).val; omega

theorem blk_7 (c : Dev nD) (t : Fin cfg2.N) : iblk2 V c 7 t = V c main_call0_v101 := by
  funext y
  show V c main_call0_v101 (((cfg2.win 7).blk t).view.emb y) = V c main_call0_v101 y
  refine congrArg _ (funext fun a => Fin.ext ?_)
  obtain ⟨-, -, -, -, -, -, -, -, -, -, -, -, -, -, e70, e71, -⟩ := idx_facts t
  match a with
  | ⟨0, _⟩ => show win2_7.index t (0 : Fin 2) * 128 + 1 * (y 0).val = (y 0).val; omega
  | ⟨1, _⟩ => show win2_7.index t (1 : Fin 2) * 128 + 1 * (y 1).val = (y 1).val; omega

theorem blk_8 (c : Dev nD) (t : Fin cfg2.N) : iblk2 V c 8 t = V c main_call0_v103 := by
  funext y
  show V c main_call0_v103 (((cfg2.win 8).blk t).view.emb y) = V c main_call0_v103 y
  refine congrArg _ (funext fun a => Fin.ext ?_)
  obtain ⟨-, -, -, -, -, -, -, -, -, -, -, -, -, -, -, -, e80, -⟩ := idx_facts t
  match a with
  | ⟨0, _⟩ => show win2_8.index t (0 : Fin 1) * 128 + 1 * (y 0).val = (y 0).val; omega

/-- The output block's entry (p, q) at point t is the output array's entry (4000·t + p, q). -/
theorem emb_9 (t : Fin cfg2.N) (p : Fin 4000) (q : Fin 128) :
    ((cfg2.win 9).blk t).view.emb (ix2 p q) = (ix2 (row t p) q : S100000x128.Idx) := by
  funext a; apply Fin.ext
  obtain ⟨-, -, -, -, -, -, -, -, -, -, -, -, -, -, -, -, -, e90, e91⟩ := idx_facts t
  match a with
  | ⟨0, _⟩ => show win2_9.index t (0 : Fin 2) * 4000 + 1 * p.val = 4000 * t.val + p.val; omega
  | ⟨1, _⟩ => show win2_9.index t (1 : Fin 2) * 128 + 1 * q.val = q.val; omega

/-! ## What point t writes back -/

theorem flushed_eq (c : Dev nD) (t : Fin cfg2.N) :
    (dat2 V c).flushed 9 t = ((cfg2.win 9).blk t).view.read (Elt Ideal) (G V c) := by
  show (cfg2.win 9).cut (grid2.coords t) ((dat2 V c).after 9 t) = _
  rw [after2_9]
  unfold out2_9
  rw [View.canon_unit_zero hz2]
  simp only [View.ld_unit_zero (S := S4000x128) hz2, View.ld_unit_zero (S := S4000x1) hz2,
    View.ld_unit_zero (S := S128x128) hz2, View.ld_unit_zero (S := S128) hz1]
  funext j
  obtain ⟨p, q, rfl⟩ : ∃ (p : Fin 4000) (q : Fin 128), j = ix2 p q := ⟨j 0, j 1, eq_ix2 j⟩
  refine (Pay.pay2_apply (iblk2 V c 0 t) (iblk2 V c 1 t) (iblk2 V c 2 t) (iblk2 V c 3 t) (iblk2 V c 4 t)
    (iblk2 V c 5 t) (iblk2 V c 6 t) (iblk2 V c 7 t) (iblk2 V c 8 t) p q).trans ?_
  show _ = G V c (((cfg2.win 9).blk t).view.emb (ix2 p q))
  rw [emb_9 t p q]
  show _ = Cert.Layer.entry (V c main_call0_v85) (V c main_call0_v95) (V c main_call0_v75) (V c main_call0_v15) (V c main_call0_v17)
    (V c main_call0_v97) (V c main_call0_v99) (V c main_call0_v101) (V c main_call0_v103) (row t p) q
  exact Cert.Layer.entry_block (V c main_call0_v85) (V c main_call0_v95) (V c main_call0_v75) (V c main_call0_v15) (V c main_call0_v17)
    (V c main_call0_v97) (V c main_call0_v99) (V c main_call0_v101) (V c main_call0_v103)
    (iblk2 V c 0 t) (iblk2 V c 1 t) (iblk2 V c 2 t) (iblk2 V c 3 t) (iblk2 V c 4 t)
    (iblk2 V c 5 t) (iblk2 V c 6 t) (iblk2 V c 7 t) (iblk2 V c 8 t) p q (row t p)
    (fun k => blk_0 V c t p k) (fun k => blk_1 V c t p k) (fun k => blk_2 V c t p k) (blk_3 V c t p) (blk_4 V c t p)
    (blk_5 V c t) (blk_6 V c t) (blk_7 V c t) (blk_8 V c t)

/-! ## The 25 row blocks tile the array -/

theorem mem_blk (t : Fin cfg2.N) (i : S100000x128.Idx) :
    i ∈ ((cfg2.win 9).blk t).view.set ↔ ∀ a : Fin 2, win2_9.index t a * S4000x128.size a ≤ (i a).val ∧ (i a).val < win2_9.index t a * S4000x128.size a + S4000x128.size a := by
  show i ∈ ((View.whole main_v0).slice (win2_9.rect t)).set ↔ _
  rw [View.set_slice_whole, Rect.mem_set_unit]
  exact Iff.rfl

theorem cover (i : S100000x128.Idx) :
    ∃ t : Fin cfg2.N, (cfg2.win 9).flush t = true ∧ i ∈ ((cfg2.win 9).blk t).view.set := by
  have hi0 : (i 0).val < 100000 := (i 0).isLt
  have hi1 : (i 1).val < 128 := (i 1).isLt
  have ht : (i 0).val / 4000 < 25 := by omega
  refine ⟨⟨(i 0).val / 4000, ht⟩, flush2_9 _, ?_⟩
  rw [mem_blk]
  obtain ⟨-, -, -, -, -, -, -, -, -, -, -, -, -, -, -, -, -, e90, e91⟩ := idx_facts ⟨(i 0).val / 4000, ht⟩
  have e90' : win2_9.index ⟨(i 0).val / 4000, ht⟩ (0 : Fin 2) = (i 0).val / 4000 := e90
  intro a
  match a with
  | ⟨0, _⟩ =>
    show win2_9.index ⟨(i 0).val / 4000, ht⟩ (0 : Fin 2) * 4000 ≤ (i 0).val ∧ (i 0).val < win2_9.index ⟨(i 0).val / 4000, ht⟩ (0 : Fin 2) * 4000 + 4000
    omega
  | ⟨1, _⟩ =>
    show win2_9.index ⟨(i 0).val / 4000, ht⟩ (1 : Fin 2) * 128 ≤ (i 1).val ∧ (i 1).val < win2_9.index ⟨(i 0).val / 4000, ht⟩ (1 : Fin 2) * 128 + 128
    omega

/-- The output array after the region: the layer of the arrays as the region finds them. -/
theorem final (c : Dev nD) : (dat2 V c).arrAt 9 cfg2.N = G V c :=
  (dat2 V c).arrAt_eq_of_cover 9 (G V c) (fun t _ => flushed_eq V c t) (cover)

end Cert.KernelIdeal.Region2

end
-- ==== Proof.KRun.lean ====
/-
  The three layers' run, read to the end: from any launch memory every weakly fair execution of the program
  terminates, and the final memory holds, at every buffer that outlives a kernel region, the contents the
  boundary fold leaves there — in particular the result array, which is the third region's output array, and the
  nine argument arrays, which nothing writes.
-/
import proofs.«140152_j49323404427377_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Any property of the final memory that follows from "every buffer outliving the regions holds what the last
    boundary's contents say" holds after every weakly fair execution. -/
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := hQ)

/-- The run with the result array named: it ends at the last boundary's contents of the third region's output
    array, and every argument array ends as launched. -/
theorem run_result : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_post m ρ (fun s h c =>
      ⟨h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.KRun

end
-- ==== Proof.KValue.lean ====
/-
  The program's result. The third region's output array is the result array; it holds the layer of what the third
  region found, which boundary 5 identifies with the reference's stages of the same arguments: so it holds the
  reference's third layer output, the reference's result, as a function of the launch contents of the nine
  argument arrays. Every weakly fair execution ends there, with the arguments unchanged.
-/
import proofs.«140152_j49323404427377_2_alg».proof.Proof.Gen.KernelIdeal.Frame
import proofs.«140152_j49323404427377_2_alg».proof.Proof.Gen.ReferenceIdeal.Read
import proofs.«140152_j49323404427377_2_alg».proof.Proof.LayerSpec
import proofs.«140152_j49323404427377_2_alg».proof.Proof.LayerCongr
import proofs.«140152_j49323404427377_2_alg».proof.Proof.Args
import proofs.«140152_j49323404427377_2_alg».proof.Proof.RefLayers
import Idealize.ShloMosaic.Lib.StableHlo.Run
import Idealize.ShloMosaic.Lib.IdealHost
import proofs.«140152_j49323404427377_2_alg».proof.Proof.Bound5
import proofs.«140152_j49323404427377_2_alg».proof.Proof.Region2
import proofs.«140152_j49323404427377_2_alg».proof.Proof.KRun

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg) (c : Dev nD)

open Cert.KernelIdeal.Args

theorem W6_v0 : W6 m ρ c (Proc.devRef .tc main_v0) = (val_main_v136 (F := Ideal) (x0 m c) (x1 m c) (x2 m c) (x3 m c) (x4 m c) (x5 m c) (x6 m c) (x7 m c) (x8 m c)) :=
  (W6_arr m ρ c 9).trans ((Region2.final (V5 m ρ) c).trans
    ((Cert.Layer.layer_congr (Bound5.W5_v85 m ρ c) (Bound5.W5_v95 m ρ c) (Bound5.W5_v75 m ρ c) (Bound5.W5_v15 m ρ c) (Bound5.W5_v17 m ρ c) (Bound5.W5_v97 m ρ c) (Bound5.W5_v99 m ρ c) (Bound5.W5_v101 m ρ c) (Bound5.W5_v103 m ρ c)).trans
      (Cert.ReferenceIdeal.RefValue.layer2_eq _ _ _ _ _ _ _ _ _).symm))

/-- The run, with the result array at the reference's result of the launch arguments. -/
theorem run : θ_run (defs (F := Ideal)) (onTc (τ := τ) (main (F := Ideal))) ⟨m, fun _ => 0, ρ⟩ (fun r => ∀ c : Dev nD,
      r.2.mem ((c.tc : Thread nD τ).loc main_v0) = (val_main_v136 (F := Ideal) (x0 m c) (x1 m c) (x2 m c) (x3 m c) (x4 m c) (x5 m c) (x6 m c) (x7 m c) (x8 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun r h c => ⟨(h c).1.trans (W6_v0 m ρ c), (h c).2⟩) (KRun.run_result m ρ)

end Cert.KernelIdeal.KValue

end
-- ==== Proof.lean ====
/-
  A three-layer relational graph convolution on a sentence/document graph (100000 sentence nodes, 10000 document
  nodes, 128 features), computed by a row-blocked kernel called once per layer, against its plain reference.

  Per layer and per sentence node r, both programs compute
      h'[r] = max( (A[r] / d₁[r]) · W₀ + (B[r] / d₂[r]) · W₁ + h[r] · W_l + b , 0 ),
  where A is the sum of h over the sentence neighbours of r, B the sum of the document features over its document
  neighbours, and d₁, d₂ = max(in-degree, 1). The reference divides the aggregated rows by the degrees; the kernel
  multiplies them by reciprocals 1 / d computed once. On the extended reals x · (1 / d) = x / d whenever d ≠ 0, and
  max(·, 1) is never 0, so the two agree at every input, infinite entries included: the precondition is not used.
  The aggregation (gather by source index, scatter-add by destination index) is the same host operation of the
  same arguments in both programs and is carried through unopened. The kernel's row blocks are restrictions of the
  layer function to 4000 rows and tile the 100000 rows (Region0–2); matrix products are plain sums over the
  contracted index on both sides, added in the same order; format changes are the identity.

  The argument arrays are written by neither program; the kernel's idealization rewrote no operation.
-/
import proofs.«140152_j49323404427377_2_alg».proof.Defs
import proofs.«140152_j49323404427377_2_alg».proof.Proof.Gen.Kernel
import proofs.«140152_j49323404427377_2_alg».proof.Proof.Gen.Kernel.Frame
import proofs.«140152_j49323404427377_2_alg».proof.Proof.Gen.KernelIdeal
import proofs.«140152_j49323404427377_2_alg».proof.Proof.Gen.KernelIdeal.Frame
import proofs.«140152_j49323404427377_2_alg».proof.Proof.Gen.ReferenceIdeal
import proofs.«140152_j49323404427377_2_alg».proof.Proof.Gen.ReferenceIdeal.Run
import proofs.«140152_j49323404427377_2_alg».proof.Proof.Gen.ReferenceIdeal.Read
import proofs.«140152_j49323404427377_2_alg».proof.Proof.Gen.Pre_finite_inputs
import proofs.«140152_j49323404427377_2_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end, from memories agreeing on the arguments, with the result array at the reference's result of
    those arguments. -/
theorem algebraic : Cert.algebraic_KernelIdeal_ReferenceIdeal := by
  intro m ρ m' ρ' _ hagree
  refine ⟨fun c => Cert.ReferenceIdeal.Read.val_main_v136 (F := Ideal) (Cert.KernelIdeal.Args.x0 m c) (Cert.KernelIdeal.Args.x1 m c) (Cert.KernelIdeal.Args.x2 m c) (Cert.KernelIdeal.Args.x3 m c) (Cert.KernelIdeal.Args.x4 m c) (Cert.KernelIdeal.Args.x5 m c) (Cert.KernelIdeal.Args.x6 m c) (Cert.KernelIdeal.Args.x7 m c) (Cert.KernelIdeal.Args.x8 m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v136_eq]
  obtain ⟨h0, h1, h2, h3, h4, h5, h6, h7, h8⟩ := hagree c
  rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
